-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S2x200000 : Shape := ⟨2, ![2, 200000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg7 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg7
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x256 .f32) (main_arg1 : IVec S2x800000 32) (main_arg2 : IVec S2x200000 32) (main_arg3 : IVec S2x200000 32) (main_arg4 : FVec F S256x128 .f32) (main_arg5 : FVec F S128 .f32) (main_arg6 : FVec F S128x64 .f32) (main_arg7 : FVec F S64 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg4
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg6
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg7 main_v13 main_v16
-- ==== Kernel.lean ====
abbrev S50000x256 : Shape := ⟨2, ![50000, 256]⟩
abbrev S2x800000 : Shape := ⟨2, ![2, 800000]⟩
abbrev S2x200000 : Shape := ⟨2, ![2, 200000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S5000x256 : Shape := ⟨2, ![5000, 256]⟩
abbrev S5000x128 : Shape := ⟨2, ![5000, 128]⟩
abbrev S850000x128 : Shape := ⟨2, ![850000, 128]⟩
abbrev S1x128 : Shape := ⟨2, ![1, 128]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩
abbrev S2x400000 : Shape := ⟨2, ![2, 400000]⟩
abbrev S1x400000 : Shape := ⟨2, ![1, 400000]⟩
abbrev S400000 : Shape := ⟨1, ![400000]⟩
abbrev S400000x1 : Shape := ⟨2, ![400000, 1]⟩
abbrev S400000x64 : Shape := ⟨2, ![400000, 64]⟩
abbrev S401408x64 : Shape := ⟨2, ![401408, 64]⟩
abbrev S401408x1 : Shape := ⟨2, ![401408, 1]⟩
abbrev S2048x64 : Shape := ⟨2, ![2048, 64]⟩
abbrev S2048x1 : Shape := ⟨2, ![2048, 1]⟩
abbrev S2048 : Shape := ⟨1, ![2048]⟩
abbrev S401408 : Shape := ⟨1, ![401408]⟩

abbrev nBuf : Space → Nat
  | .hbm => 122
  | .vmem => 26
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S2x200000, .i32⟩
  | .hbm, ⟨3, _⟩ => ⟨S2x200000, .i32⟩
  | .hbm, ⟨4, _⟩ => ⟨S256x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S50000x256, .bf16⟩
  | .hbm, ⟨49, _⟩ => ⟨S256x128, .bf16⟩
  | .hbm, ⟨50, _⟩ => ⟨S50000x128, .f32⟩
  | .hbm, ⟨51, _⟩ => ⟨S_, .i32⟩
  | .hbm, ⟨52, _⟩ => ⟨S850000, .i32⟩
  | .hbm, ⟨53, _⟩ => ⟨S850000, .i1⟩
  | .hbm, ⟨54, _⟩ => ⟨S_, .i32⟩
  | .hbm, ⟨55, _⟩ => ⟨S850000, .i32⟩
  | .hbm, ⟨56, _⟩ => ⟨S850000, .i32⟩
  | .hbm, ⟨57, _⟩ => ⟨S850000, .i32⟩
  | .hbm, ⟨58, _⟩ => ⟨S850000x1, .i32⟩
  | .hbm, ⟨59, _⟩ => ⟨S850000x128, .f32⟩
  | .hbm, ⟨60, _⟩ => ⟨S850000x1, .f32⟩
  | .hbm, ⟨61, _⟩ => ⟨S850000x128, .f32⟩
  | .hbm, ⟨62, _⟩ => ⟨S850000x128, .f32⟩
  | .hbm, ⟨63, _⟩ => ⟨S_, .f32⟩
  | .hbm, ⟨64, _⟩ => ⟨S50000x128, .f32⟩
  | .hbm, ⟨65, _⟩ => ⟨S850000x1, .i32⟩
  | .hbm, ⟨66, _⟩ => ⟨S50000x128, .f32⟩
  | .hbm, ⟨67, _⟩ => ⟨S1x128, .f32⟩
  | .hbm, ⟨68, _⟩ => ⟨S50000x128, .f32⟩
  | .hbm, ⟨69, _⟩ => ⟨S50000x128, .bf16⟩
  | .hbm, ⟨70, _⟩ => ⟨S128x64, .bf16⟩
  | .hbm, ⟨71, _⟩ => ⟨S50000x64, .f32⟩
  | .hbm, ⟨72, _⟩ => ⟨S_, .i32⟩
  | .hbm, ⟨73, _⟩ => ⟨S850000, .i32⟩
  | .hbm, ⟨74, _⟩ => ⟨S850000, .i1⟩
  | .hbm, ⟨75, _⟩ => ⟨S_, .i32⟩
  | .hbm, ⟨76, _⟩ => ⟨S850000, .i32⟩
  | .hbm, ⟨77, _⟩ => ⟨S850000, .i32⟩
  | .hbm, ⟨78, _⟩ => ⟨S850000, .i32⟩
  | .hbm, ⟨79, _⟩ => ⟨S850000x1, .i32⟩
  | .hbm, ⟨80, _⟩ => ⟨S850000x64, .f32⟩
  | .hbm, ⟨81, _⟩ => ⟨S850000x1, .f32⟩
  | .hbm, ⟨82, _⟩ => ⟨S850000x64, .f32⟩
  | .hbm, ⟨83, _⟩ => ⟨S850000x64, .f32⟩
  | .hbm, ⟨84, _⟩ => ⟨S_, .f32⟩
  | .hbm, ⟨85, _⟩ => ⟨S50000x64, .f32⟩
  | .hbm, ⟨86, _⟩ => ⟨S850000x1, .i32⟩
  | .hbm, ⟨87, _⟩ => ⟨S50000x64, .f32⟩
  | .hbm, ⟨88, _⟩ => ⟨S1x64, .f32⟩
  | .hbm, ⟨89, _⟩ => ⟨S50000x64, .f32⟩
  | .hbm, ⟨90, _⟩ => ⟨S2x400000, .i32⟩
  | .hbm, ⟨91, _⟩ => ⟨S1x400000, .i32⟩
  | .hbm, ⟨92, _⟩ => ⟨S400000, .i32⟩
  | .hbm, ⟨93, _⟩ => ⟨S_, .i32⟩
  | .hbm, ⟨94, _⟩ => ⟨S400000, .i32⟩
  | .hbm, ⟨95, _⟩ => ⟨S400000, .i1⟩
  | .hbm, ⟨96, _⟩ => ⟨S_, .i32⟩
  | .hbm, ⟨97, _⟩ => ⟨S400000, .i32⟩
  | .hbm, ⟨98, _⟩ => ⟨S400000, .i32⟩
  | .hbm, ⟨99, _⟩ => ⟨S400000, .i32⟩
  | .hbm, ⟨100, _⟩ => ⟨S400000x1, .i32⟩
  | .hbm, ⟨101, _⟩ => ⟨S400000x64, .f32⟩
  | .hbm, ⟨102, _⟩ => ⟨S1x400000, .i32⟩
  | .hbm, ⟨103, _⟩ => ⟨S400000, .i32⟩
  | .hbm, ⟨104, _⟩ => ⟨S_, .i32⟩
  | .hbm, ⟨105, _⟩ => ⟨S400000, .i32⟩
  | .hbm, ⟨106, _⟩ => ⟨S400000, .i1⟩
  | .hbm, ⟨107, _⟩ => ⟨S_, .i32⟩
  | .hbm, ⟨108, _⟩ => ⟨S400000, .i32⟩
  | .hbm, ⟨109, _⟩ => ⟨S400000, .i32⟩
  | .hbm, ⟨110, _⟩ => ⟨S400000, .i32⟩
  | .hbm, ⟨111, _⟩ => ⟨S400000x1, .i32⟩
  | .hbm, ⟨112, _⟩ => ⟨S400000x64, .f32⟩
  | .hbm, ⟨113, _⟩ => ⟨S_, .i32⟩
  | .hbm, ⟨114, _⟩ => ⟨S_, .f32⟩
  | .hbm, ⟨115, _⟩ => ⟨S401408x64, .f32⟩
  | .hbm, ⟨116, _⟩ => ⟨S_, .i32⟩
  | .hbm, ⟨117, _⟩ => ⟨S_, .f32⟩
  | .hbm, ⟨118, _⟩ => ⟨S401408x64, .f32⟩
  | .hbm, ⟨119, _⟩ => ⟨S401408x1, .f32⟩
  | .hbm, ⟨120, _⟩ => ⟨S401408, .f32⟩
  | .hbm, ⟨121, _⟩ => ⟨S400000, .f32⟩
  | .local _ .vmem, ⟨0, _⟩ => ⟨S5000x256, .bf16⟩
  | .local _ .vmem, ⟨1, _⟩ => ⟨S5000x256, .bf16⟩
  | .local _ .vmem, ⟨2, _⟩ => ⟨S256x128, .bf16⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .bf16⟩
  | .local _ .vmem, ⟨11, _⟩ => ⟨S5000x128, .bf16⟩
  | .local _ .vmem, ⟨12, _⟩ => ⟨S128x64, .bf16⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S2048x64, .f32⟩
  | .local _ .vmem, ⟨21, _⟩ => ⟨S2048x64, .f32⟩
  | .local _ .vmem, ⟨22, _⟩ => ⟨S2048x64, .f32⟩
  | .local _ .vmem, ⟨23, _⟩ => ⟨S2048x64, .f32⟩
  | .local _ .vmem, ⟨24, _⟩ => ⟨S2048x1, .f32⟩
  | .local _ .vmem, ⟨25, _⟩ => ⟨S2048x1, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_6 : Ref sig .tc := ⟨.hbm, 51, rfl⟩
abbrev main_v33 : Ref sig .tc := ⟨.hbm, 52, rfl⟩
abbrev main_v34 : Ref sig .tc := ⟨.hbm, 53, rfl⟩
abbrev main_c_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_c_9 : Ref sig .tc := ⟨.hbm, 72, rfl⟩
abbrev main_v51 : Ref sig .tc := ⟨.hbm, 73, rfl⟩
abbrev main_v52 : Ref sig .tc := ⟨.hbm, 74, rfl⟩
abbrev main_c_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_11 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_c_12 : Ref sig .tc := ⟨.hbm, 93, rfl⟩
abbrev main_v69 : Ref sig .tc := ⟨.hbm, 94, rfl⟩
abbrev main_v70 : Ref sig .tc := ⟨.hbm, 95, rfl⟩
abbrev main_c_13 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_c_14 : Ref sig .tc := ⟨.hbm, 104, rfl⟩
abbrev main_v78 : Ref sig .tc := ⟨.hbm, 105, rfl⟩
abbrev main_v79 : Ref sig .tc := ⟨.hbm, 106, rfl⟩
abbrev main_c_15 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_c_16 : Ref sig .tc := ⟨.hbm, 113, rfl⟩
abbrev main_call1_v0 : Ref sig .tc := ⟨.hbm, 114, rfl⟩
abbrev main_v85 : Ref sig .tc := ⟨.hbm, 115, rfl⟩
abbrev main_c_17 : Ref sig .tc := ⟨.hbm, 116, rfl⟩
abbrev main_call2_v0 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg1_1 : Ref sig .tc := ⟨.vmem, 23, rfl⟩
abbrev cc4_stg2_0 : Ref sig .tc := ⟨.vmem, 24, rfl⟩
abbrev cc4_stg2_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem1_1 : DmaSem sig := 23
abbrev cc4_sem2_0 : DmaSem sig := 24
abbrev cc4_sem2_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![196], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2048x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2048x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2048x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bitsLt_bf16_f32 : FTy.bits .bf16 < FTy.bits .f32
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S5000x128_S5000x128_0_0 : ∀ a, (![0, 0] : Fin 2 → Nat) a + S5000x128.size a ≤ S5000x128.size a
  h_S5000x128 : 0 < S5000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  concatenates_S2x200000_S2x200000_S2x400000_d1 : Shape.Concatenates [S2x200000, S2x200000] S2x400000 1
  slices_S2x400000_S1x400000_0_0 : S2x400000.Slices ![0, 0] S1x400000
  shapeCasts_S1x400000_S400000 : S1x400000.ShapeCasts S400000
  bcast_S_S400000 : S_.BroadcastsInDim S400000 (![] : Fin 0 → Fin S400000.rank)
  bcast_S400000_S400000x1_0 : S400000.BroadcastsInDim S400000x1 (![0] : Fin 1 → Fin S400000x1.rank)
  slices_S2x400000_S1x400000_1_0 : S2x400000.Slices ![1, 0] S1x400000
  pads_S400000x64_S401408x64_014080_000 : S400000x64.Pads (![0, 0] : Fin 2 → Nat) ![1408, 0] ![0, 0] S401408x64
  h_S_ : 0 < S_.numel
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  reduces_S2048x64_S2048 : S2048x64.Reduces [1] S2048
  shapeCasts_S2048_S2048x1 : S2048.ShapeCasts S2048x1
  inb_S2048x1_S2048x1_0_0 : ∀ a, (![0, 0] : Fin 2 → Nat) a + S2048x1.size a ≤ S2048x1.size a
  h_S2048x1 : 0 < S2048x1.numel
  shapeCasts_S401408x1_S401408 : S401408x1.ShapeCasts S401408
  slices_S401408_S400000_0 : S401408.Slices ![0] S400000
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x256_S256x128_S5000x128_1_0_0_1_n_n_wf : DotDims.WF S5000x256 S256x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  gather_S50000x64_S400000x1_S400000x64_1_0_n_n_0_1_164_wf : GatherDims.WF S50000x64 S400000x1 S400000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .bf16 = 32 ∨ (Rect.block (s := S50000x256) S5000x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .bf16 = 32 ∨ (Rect.block (s := S256x128) S256x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .bf16 = 32 ∨ (Rect.block (s := S50000x128) S5000x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .bf16 = 32 ∨ (Rect.block (s := S128x64) S128x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x64.size a ≤ S401408x64.size a
  hwx4_0 : ∀ i : grid4.Coords, EltTy.bits .f32 = 32 ∨ (Rect.block (s := S401408x64) S2048x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2048x64.size a ≤ S401408x64.size a
  hwx4_1 : ∀ i : grid4.Coords, EltTy.bits .f32 = 32 ∨ (Rect.block (s := S401408x64) S2048x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2048x1.size a ≤ S401408x1.size a
  hwx4_2 : ∀ i : grid4.Coords, EltTy.bits .f32 = 32 ∨ (Rect.block (s := S401408x1) S2048x1.size (cc4_transform_2 i) (hinb4_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def gather_S50000x64_S400000x1_S400000x64_1_0_n_n_0_1_164 : GatherDims S50000x64 S400000x1 S400000x64 where
  offsetDims := [1]
  collapsedSliceDims := [0]
  operandBatchingDims := []
  startIndicesBatchingDims := []
  startIndexMap := [0]
  indexVectorDim := 1
  sliceSizes := ![1, 64]
  wf := gather_S50000x64_S400000x1_S400000x64_1_0_n_n_0_1_164_wf

abbrev win0_0 : Pipeline.Window sig grid0 :=
  Pipeline.Window.ofSpec (Memref.whole main_v30) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v48) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v63) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v64) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v65) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v85) S2048x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v86) S2048x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v87) S2048x1.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S2x200000 : Shape := ⟨2, ![2, 200000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩
abbrev S2x400000 : Shape := ⟨2, ![2, 400000]⟩
abbrev S1x400000 : Shape := ⟨2, ![1, 400000]⟩
abbrev S400000 : Shape := ⟨1, ![400000]⟩
abbrev S400000x1 : Shape := ⟨2, ![400000, 1]⟩
abbrev S400000x64 : Shape := ⟨2, ![400000, 64]⟩

abbrev nBuf : Space → Nat
  | .hbm => 157
  | .vmem => 0
  | .smem => 0
  | _ => 0

abbrev hbmTy0_0 (i : Nat) : BufTy := match i % 128 with
  | 0 => ⟨S50000x256, .f32⟩
  | 1 => ⟨S2x800000, .i32⟩
  | 2 => ⟨S2x200000, .i32⟩
  | 3 => ⟨S2x200000, .i32⟩
  | 4 => ⟨S256x128, .f32⟩
  | 5 => ⟨S128, .f32⟩
  | 6 => ⟨S128x64, .f32⟩
  | 7 => ⟨S64, .f32⟩
  | 8 => ⟨S50000, .i32⟩
  | 9 => ⟨S1x800000, .i32⟩
  | 10 => ⟨S800000, .i32⟩
  | 11 => ⟨S850000, .i32⟩
  | 12 => ⟨S1x800000, .i32⟩
  | 13 => ⟨S800000, .i32⟩
  | 14 => ⟨S850000, .i32⟩
  | 15 => ⟨S_, .f32⟩
  | 16 => ⟨S850000, .f32⟩
  | 17 => ⟨S_, .f32⟩
  | 18 => ⟨S50000, .f32⟩
  | 19 => ⟨S850000x1, .i32⟩
  | 20 => ⟨S50000, .f32⟩
  | 21 => ⟨S_, .f32⟩
  | 22 => ⟨S50000, .f32⟩
  | 23 => ⟨S50000, .i1⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S850000, .i32⟩
  | 31 => ⟨S850000, .i1⟩
  | 32 => ⟨S_, .i32⟩
  | 33 => ⟨S850000, .i32⟩
  | 34 => ⟨S850000, .i32⟩
  | 35 => ⟨S850000, .i32⟩
  | 36 => ⟨S850000x1, .i32⟩
  | 37 => ⟨S850000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S850000, .f32⟩
  | 48 => ⟨S50000x128, .f32⟩
  | 49 => ⟨S_, .i32⟩
  | 50 => ⟨S850000, .i32⟩
  | 51 => ⟨S850000, .i1⟩
  | 52 => ⟨S_, .i32⟩
  | 53 => ⟨S850000, .i32⟩
  | 54 => ⟨S850000, .i32⟩
  | 55 => ⟨S850000, .i32⟩
  | 56 => ⟨S850000x1, .i32⟩
  | 57 => ⟨S850000x128, .f32⟩
  | 58 => ⟨S850000x1, .f32⟩
  | 59 => ⟨S850000x128, .f32⟩
  | 60 => ⟨S850000x128, .f32⟩
  | 61 => ⟨S_, .f32⟩
  | 62 => ⟨S50000x128, .f32⟩
  | 63 => ⟨S850000x1, .i32⟩
  | 64 => ⟨S50000x128, .f32⟩
  | 65 => ⟨S1x128, .f32⟩
  | 66 => ⟨S50000x128, .f32⟩
  | 67 => ⟨S50000x128, .f32⟩
  | 68 => ⟨S_, .f32⟩
  | 69 => ⟨S50000x128, .f32⟩
  | 70 => ⟨S50000x128, .f32⟩
  | 71 => ⟨S50000, .i32⟩
  | 72 => ⟨S1x800000, .i32⟩
  | 73 => ⟨S800000, .i32⟩
  | 74 => ⟨S850000, .i32⟩
  | 75 => ⟨S1x800000, .i32⟩
  | 76 => ⟨S800000, .i32⟩
  | 77 => ⟨S850000, .i32⟩
  | 78 => ⟨S_, .f32⟩
  | 79 => ⟨S850000, .f32⟩
  | 80 => ⟨S_, .f32⟩
  | 81 => ⟨S50000, .f32⟩
  | 82 => ⟨S850000x1, .i32⟩
  | 83 => ⟨S50000, .f32⟩
  | 84 => ⟨S_, .f32⟩
  | 85 => ⟨S50000, .f32⟩
  | 86 => ⟨S50000, .i1⟩
  | 87 => ⟨S50000, .f32⟩
  | 88 => ⟨S_, .f32⟩
  | 89 => ⟨S_, .f32⟩
  | 90 => ⟨S50000, .f32⟩
  | 91 => ⟨S50000, .f32⟩
  | 92 => ⟨S_, .i32⟩
  | 93 => ⟨S850000, .i32⟩
  | 94 => ⟨S850000, .i1⟩
  | 95 => ⟨S_, .i32⟩
  | 96 => ⟨S850000, .i32⟩
  | 97 => ⟨S850000, .i32⟩
  | 98 => ⟨S850000, .i32⟩
  | 99 => ⟨S850000x1, .i32⟩
  | 100 => ⟨S850000, .f32⟩
  | 101 => ⟨S_, .i32⟩
  | 102 => ⟨S850000, .i32⟩
  | 103 => ⟨S850000, .i1⟩
  | 104 => ⟨S_, .i32⟩
  | 105 => ⟨S850000, .i32⟩
  | 106 => ⟨S850000, .i32⟩
  | 107 => ⟨S850000, .i32⟩
  | 108 => ⟨S850000x1, .i32⟩
  | 109 => ⟨S850000, .f32⟩
  | 110 => ⟨S850000, .f32⟩
  | 111 => ⟨S50000x64, .f32⟩
  | 112 => ⟨S_, .i32⟩
  | 113 => ⟨S850000, .i32⟩
  | 114 => ⟨S850000, .i1⟩
  | 115 => ⟨S_, .i32⟩
  | 116 => ⟨S850000, .i32⟩
  | 117 => ⟨S850000, .i32⟩
  | 118 => ⟨S850000, .i32⟩
  | 119 => ⟨S850000x1, .i32⟩
  | 120 => ⟨S850000x64, .f32⟩
  | 121 => ⟨S850000x1, .f32⟩
  | 122 => ⟨S850000x64, .f32⟩
  | 123 => ⟨S850000x64, .f32⟩
  | 124 => ⟨S_, .f32⟩
  | 125 => ⟨S50000x64, .f32⟩
  | 126 => ⟨S850000x1, .i32⟩
  | 127 => ⟨S50000x64, .f32⟩
  | _ => ⟨S50000x256, .f32⟩

abbrev hbmTy0_1 (i : Nat) : BufTy := match i % 128 with
  | 0 => ⟨S1x64, .f32⟩
  | 1 => ⟨S50000x64, .f32⟩
  | 2 => ⟨S50000x64, .f32⟩
  | 3 => ⟨S2x400000, .i32⟩
  | 4 => ⟨S1x400000, .i32⟩
  | 5 => ⟨S400000, .i32⟩
  | 6 => ⟨S_, .i32⟩
  | 7 => ⟨S400000, .i32⟩
  | 8 => ⟨S400000, .i1⟩
  | 9 => ⟨S_, .i32⟩
  | 10 => ⟨S400000, .i32⟩
  | 11 => ⟨S400000, .i32⟩
  | 12 => ⟨S400000, .i32⟩
  | 13 => ⟨S400000x1, .i32⟩
  | 14 => ⟨S400000x64, .f32⟩
  | 15 => ⟨S1x400000, .i32⟩
  | 16 => ⟨S400000, .i32⟩
  | 17 => ⟨S_, .i32⟩
  | 18 => ⟨S400000, .i32⟩
  | 19 => ⟨S400000, .i1⟩
  | 20 => ⟨S_, .i32⟩
  | 21 => ⟨S400000, .i32⟩
  | 22 => ⟨S400000, .i32⟩
  | 23 => ⟨S400000, .i32⟩
  | 24 => ⟨S400000x1, .i32⟩
  | 25 => ⟨S400000x64, .f32⟩
  | 26 => ⟨S400000x64, .f32⟩
  | 27 => ⟨S_, .f32⟩
  | 28 => ⟨S400000, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_9 : Ref sig .tc := ⟨.hbm, 78, rfl⟩
abbrev main_v55 : Ref sig .tc := ⟨.hbm, 79, rfl⟩
abbrev main_cst_10 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_12 : Ref sig .tc := ⟨.hbm, 88, rfl⟩
abbrev main_call2_v0 : Ref sig .tc := ⟨.hbm, 89, rfl⟩
abbrev main_call2_v1 : Ref sig .tc := ⟨.hbm, 90, rfl⟩
abbrev main_v62 : Ref sig .tc := ⟨.hbm, 91, rfl⟩
abbrev main_c_13 : Ref sig .tc := ⟨.hbm, 92, rfl⟩
abbrev main_v63 : Ref sig .tc := ⟨.hbm, 93, rfl⟩
abbrev main_v64 : Ref sig .tc := ⟨.hbm, 94, rfl⟩
abbrev main_c_14 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_c_15 : Ref sig .tc := ⟨.hbm, 101, rfl⟩
abbrev main_v70 : Ref sig .tc := ⟨.hbm, 102, rfl⟩
abbrev main_v71 : Ref sig .tc := ⟨.hbm, 103, rfl⟩
abbrev main_c_16 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_c_17 : Ref sig .tc := ⟨.hbm, 112, rfl⟩
abbrev main_v79 : Ref sig .tc := ⟨.hbm, 113, rfl⟩
abbrev main_v80 : Ref sig .tc := ⟨.hbm, 114, rfl⟩
abbrev main_c_18 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_19 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_c_20 : Ref sig .tc := ⟨.hbm, 134, rfl⟩
abbrev main_v98 : Ref sig .tc := ⟨.hbm, 135, rfl⟩
abbrev main_v99 : Ref sig .tc := ⟨.hbm, 136, rfl⟩
abbrev main_c_21 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_c_22 : Ref sig .tc := ⟨.hbm, 145, rfl⟩
abbrev main_v107 : Ref sig .tc := ⟨.hbm, 146, rfl⟩
abbrev main_v108 : Ref sig .tc := ⟨.hbm, 147, rfl⟩
abbrev main_c_23 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_cst_24 : Ref sig .tc := ⟨.hbm, 155, rfl⟩
abbrev main_v115 : Ref sig .tc := ⟨.hbm, 156, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  concatenates_S2x200000_S2x200000_S2x400000_d1 : Shape.Concatenates [S2x200000, S2x200000] S2x400000 1
  slices_S2x400000_S1x400000_0_0 : S2x400000.Slices ![0, 0] S1x400000
  shapeCasts_S1x400000_S400000 : S1x400000.ShapeCasts S400000
  bcast_S_S400000 : S_.BroadcastsInDim S400000 (![] : Fin 0 → Fin S400000.rank)
  bcast_S400000_S400000x1_0 : S400000.BroadcastsInDim S400000x1 (![0] : Fin 1 → Fin S400000x1.rank)
  slices_S2x400000_S1x400000_1_0 : S2x400000.Slices ![1, 0] S1x400000
  reducesTo_S400000x64_S400000_d1 : S400000x64.ReducesTo [1] S400000
  h_S_ : 0 < S_.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  gather_S50000x64_S400000x1_S400000x64_1_0_n_n_0_1_164_wf : GatherDims.WF S50000x64 S400000x1 S400000x64 [1] [0] [] [0] [] 1 ![1, 64]

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def gather_S50000x64_S400000x1_S400000x64_1_0_n_n_0_1_164 : GatherDims S50000x64 S400000x1 S400000x64 where
  offsetDims := [1]
  collapsedSliceDims := [0]
  operandBatchingDims := []
  startIndicesBatchingDims := []
  startIndexMap := [0]
  indexVectorDim := 1
  sliceSizes := ![1, 64]
  wf := gather_S50000x64_S400000x1_S400000x64_1_0_n_n_0_1_164_wf

class Facts : Prop extends Facts₀ where

variable [Facts]
-- ==== Proof.KernelRun.lean ====
/-
  The idealized kernel's run with its result named.  The program is sixteen segments — stretches of host operations
  and five kernel regions — and the buffer contents at each boundary are a fold from the launch memory: a host
  stretch applies its operations, a region replaces its arrays by what its write-backs leave.  Every weakly fair
  execution terminates with every unscoped buffer at the last boundary's contents; read at the result buffer this
  gives the result, and at each argument buffer (which no segment writes) the launch contents.
-/
import proofs.«123876_j3075196584115_1_alg».proof.Proof.Gen.KernelIdeal.Frame

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the argument arrays as launched. -/
theorem run : θ_run defs (onTc (τ := τ) (main (F := F))) ⟨m, fun _ => 0, ρ⟩ (fun r => ∀ c : Dev nD,
      r.2.mem ((c.tc : Thread nD τ).loc main_v89) = W16 m ρ c (Proc.devRef .tc main_v89)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v89 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c)⟩)

end Cert.KernelIdeal.Run

end
-- ==== Proof.Region4.lean ====
/-
  The decoding region, read as a value.  Its windows: two [401408, 64] arrays of gathered node embeddings, each in blocks
  of 2048 rows, and the [401408, 1] result in blocks of 2048 rows.  The body multiplies its two blocks entry by entry and
  sums each row over its 64 lanes (the sum starts from zero), so what point t writes back is rows 2048·t … of the
  function that sends row p to the sum over k of left(p, k) · right(p, k); the 196 blocks tile the 401408 rows.
-/
import proofs.«123876_j3075196584115_1_alg».proof.Proof.Gen.KernelIdeal.Frame
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)
open Idealize.ShloMosaic.ValueIdx
open scoped BigOperators

namespace Cert.KernelIdeal.Region4

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- An array of extended reals read at an index (the entry's type spelt as the extended reals). -/
abbrev rd (S : Shape) (f : S.Idx → EReal) (i : S.Idx) : EReal := f i

/-- A lane sum over axis 1 of a [2048, 64] vector, at row r: the sum over the 64 lanes. -/
theorem lane_sum (src : FVec Ideal S2048x64 .f32) (hacc : (0x00000000#32 : BitVec 32) = 0x00000000#32) (r : Fin 2048) :
    multiReduction .add [1] S2048 src 0x00000000#32 reduces_S2048x64_S2048 (.inl rfl) hacc (ix1 r)
      = ∑ k : Fin 64, src (ix2 r k) := by
  refine (Ideal.multiReduction_add_single src 0x00000000#32 reduces_S2048x64_S2048 (.inl rfl) hacc (ix1 r)).trans ?_
  refine Finset.sum_congr rfl fun k _ => ?_
  exact congrArg src (funext fun a => Fin.ext (by match a with | ⟨0, _⟩ => rfl | ⟨1, _⟩ => rfl))

/-- The body's stored value at (r, 0): the sum over the 64 lanes of the products of the two loaded blocks' row r. -/
theorem pay (x0 x1 : FVec Ideal S2048x64 .f32) (j : S2048x1.Idx) :
    k4_pay1 (F := Ideal) x0 x1 j = ∑ k : Fin 64, x0 (ix2 (j 0) k) * x1 (ix2 (j 0) k) := by
  unfold k4_pay1
  simp only [shapeCast_self]
  have hj1 : (j 1).val = 0 := by have h : (j 1).val < 1 := (j 1).isLt; omega
  rw [shapeCast_apply _ shapeCasts_S2048_S2048x1 j (ix1 (j 0)) (by
    rw [Shape.rowMajor_val_one, Shape.rowMajor_val_two]
    show (j 0).val = (j 0).val * 1 + (j 1).val
    omega)]
  exact lane_sum (mulf x0 x1) rfl (j 0)

/-- The index maps over the 196 points: every window's block is at row block t, column block 0. -/
theorem idx : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- The left array's block at point t, at (r, k), is the array at (2048·t + r, k). -/
theorem blk_left (c : Dev nD) (t : Fin cfg4.N) (y : S2048x64.Idx) (i : S401408x64.Idx)
    (h0 : (i 0).val = t.val * 2048 + (y 0).val) (h1 : (i 1).val = (y 1).val) :
    (iblk4 V c 0 t : FVec Ideal S2048x64 .f32) y = (V c main_v85 : S401408x64.Idx → EReal) i := by
  obtain ⟨e0, e1, -, -, -, -⟩ := idx t
  unfold iblk4
  rw [View.read_apply]
  show (V c main_v85 : S401408x64.Idx → EReal) (((cfg4.win 0).blk t).view.emb y) = _
  refine congrArg _ (funext fun a => Fin.ext ?_)
  match a with
  | ⟨0, _⟩ => show win4_0.index t (0 : Fin 2) * 2048 + 1 * (y 0).val = (i 0).val; omega
  | ⟨1, _⟩ => show win4_0.index t (1 : Fin 2) * 64 + 1 * (y 1).val = (i 1).val; omega

/-- The right array's block at point t, at (r, k), is the array at (2048·t + r, k). -/
theorem blk_right (c : Dev nD) (t : Fin cfg4.N) (y : S2048x64.Idx) (i : S401408x64.Idx)
    (h0 : (i 0).val = t.val * 2048 + (y 0).val) (h1 : (i 1).val = (y 1).val) :
    (iblk4 V c 1 t : FVec Ideal S2048x64 .f32) y = (V c main_v86 : S401408x64.Idx → EReal) i := by
  obtain ⟨-, -, e2, e3, -, -⟩ := idx t
  unfold iblk4
  rw [View.read_apply]
  show (V c main_v86 : S401408x64.Idx → EReal) (((cfg4.win 1).blk t).view.emb y) = _
  refine congrArg _ (funext fun a => Fin.ext ?_)
  match a with
  | ⟨0, _⟩ => show win4_1.index t (0 : Fin 2) * 2048 + 1 * (y 0).val = (i 0).val; omega
  | ⟨1, _⟩ => show win4_1.index t (1 : Fin 2) * 64 + 1 * (y 1).val = (i 1).val; omega

/-- The whole-array function: row p's sum over k of the products of the two arrays' entries (p, k). -/
abbrev G (c : Dev nD) : S401408x1.Idx → EReal := fun i =>
  ∑ k : Fin 64, rd S401408x64 (V c main_v85) (ix2 (i 0) k) * rd S401408x64 (V c main_v86) (ix2 (i 0) k)

/-- What point t writes back is block t of that function of the arrays. -/
theorem flushed_eq (c : Dev nD) (t : Fin cfg4.N) :
    (dat4 V c).flushed 2 t = ((cfg4.win 2).blk t).view.read (Elt Ideal) (G V c) := by
  show (cfg4.win 2).cut (grid4.coords t) ((dat4 V c).after 2 t) = _
  rw [after4_2]
  unfold out4_2
  rw [View.canon_unit_zero hz]
  simp only [View.ld_unit_zero (S := S2048x64) hz]
  obtain ⟨-, -, -, -, e4, e5⟩ := idx t
  funext j
  rw [View.read_apply]
  show k4_pay1 (F := Ideal) (iblk4 V c 0 t) (iblk4 V c 1 t) j = G V c (((cfg4.win 2).blk t).view.emb j)
  rw [pay]
  have hE0 : ((((cfg4.win 2).blk t).view.emb j) 0).val = win4_2.index t (0 : Fin 2) * 2048 + 1 * (j 0).val := rfl
  show @Eq EReal _ _
  refine Finset.sum_congr rfl fun k _ => ?_
  rw [blk_left V c t (ix2 (j 0) k) (ix2 ((((cfg4.win 2).blk t).view.emb j) 0) k) (by show ((((cfg4.win 2).blk t).view.emb j) 0).val = _; rw [hE0]; show _ = t.val * 2048 + (j 0).val; omega) rfl,
    blk_right V c t (ix2 (j 0) k) (ix2 ((((cfg4.win 2).blk t).view.emb j) 0) k) (by show ((((cfg4.win 2).blk t).view.emb j) 0).val = _; rw [hE0]; show _ = t.val * 2048 + (j 0).val; omega) rfl]

/-- An index of the result array is in point t's block iff its row is in rows 2048·t … 2048·t + 2047. -/
theorem mem_blk (t : Fin cfg4.N) (i : S401408x1.Idx) :
    i ∈ ((cfg4.win 2).blk t).view.set ↔ ∀ a : Fin 2, win4_2.index t a * S2048x1.size a ≤ (i a).val ∧ (i a).val < win4_2.index t a * S2048x1.size a + S2048x1.size a := by
  show i ∈ ((View.whole main_v87).slice (win4_2.rect t)).set ↔ _
  rw [View.set_slice_whole, Rect.mem_set_unit]
  exact Iff.rfl

/-- The 196 blocks cover the result array: row r is in block r / 2048. -/
theorem cover (i : S401408x1.Idx) : ∃ t : Fin cfg4.N, (cfg4.win 2).flush t = true ∧ i ∈ ((cfg4.win 2).blk t).view.set := by
  have hN : cfg4.N = 196 := N_4
  have hi0 : (i 0).val < 401408 := (i 0).isLt
  have hi1 : (i 1).val < 1 := (i 1).isLt
  refine ⟨⟨(i 0).val / 2048, by rw [hN]; omega⟩, flush4_2 _, ?_⟩
  rw [mem_blk]
  obtain ⟨-, -, -, -, e4, e5⟩ := idx ⟨(i 0).val / 2048, by rw [hN]; omega⟩
  intro a
  match a with
  | ⟨0, _⟩ => show win4_2.index _ (0 : Fin 2) * 2048 ≤ (i 0).val ∧ (i 0).val < win4_2.index _ (0 : Fin 2) * 2048 + 2048; rw [e4]; show (i 0).val / 2048 * 2048 ≤ (i 0).val ∧ (i 0).val < (i 0).val / 2048 * 2048 + 2048; omega
  | ⟨1, _⟩ => show win4_2.index _ (1 : Fin 2) * 1 ≤ (i 1).val ∧ (i 1).val < win4_2.index _ (1 : Fin 2) * 1 + 1; rw [e5]; omega

/-- The result array after the region. -/
theorem final (c : Dev nD) : (dat4 V c).arrAt 2 cfg4.N = G V c :=
  (dat4 V c).arrAt_eq_of_cover 2 (G V c) (fun t _ => flushed_eq V c t) cover

end Cert.KernelIdeal.Region4

end
-- ==== Proof.LibMatmul.lean ====
/-
  Plain matrix products read at an index, at the ideal values.  For dimension numbers that contract the
  left operand's axis 1 with the right operand's axis 0, keep the left operand's axis 0 and the right
  operand's axis 1 and have no batch axis, a `tpu.matmul` into the zero accumulator and the host's
  `dot_general` are both, at the output index (p, q), the sum over k of x(p, k) · w(k, q).
-/
import Idealize.ShloMosaic.PureOps.Ideal.Laws
import Idealize.ShloMosaic.Lib.ValueIdx

noncomputable section

open scoped BigOperators

namespace Cert.LibMatmul

open Idealize.ShloMosaic Idealize.ShloMosaic.ValueIdx

/-- The matrix product of two arrays of extended reals, index by index. -/
def MM {A K B : Nat} (x : (⟨2, ![A, K]⟩ : Shape).Idx → EReal) (w : (⟨2, ![K, B]⟩ : Shape).Idx → EReal) :
    (⟨2, ![A, B]⟩ : Shape).Idx → EReal :=
  fun i => ∑ k : Fin K, x (ix2 (i 0) k) * w (ix2 k (i 1))

theorem MM_apply {A K B : Nat} (x : (⟨2, ![A, K]⟩ : Shape).Idx → EReal) (w : (⟨2, ![K, B]⟩ : Shape).Idx → EReal)
    (p : Fin A) (q : Fin B) : MM x w (ix2 p q) = ∑ k : Fin K, x (ix2 p k) * w (ix2 k q) := rfl

section Plain
variable {A K B : Nat} (d : DotDims ⟨2, ![A, K]⟩ ⟨2, ![K, B]⟩ ⟨2, ![A, B]⟩)
  (hlb : d.lhsBatch = []) (hln : d.lhsNonContracting = [0]) (hlc : d.lhsContracting = [1])
  (hrb : d.rhsBatch = []) (hrn : d.rhsNonContracting = [1]) (hrc : d.rhsContracting = [0])

include hlc in
theorem contr_rank : d.contr.rank = 1 := by rw [d.rank_contr, hlc]; rfl

include hlc in
theorem contr_size : d.contr.size ⟨0, by rw [contr_rank d hlc]; exact Nat.one_pos⟩ = K := by
  have hp : 0 < d.lhsContracting.length := by rw [hlc]; exact Nat.one_pos
  have := d.size_contr 0 hp
  simp only [hlc] at this
  exact this

include hlb hln hlc in
/-- The left operand's index at output index `j` and contraction position `k` is (j₀, k). -/
theorem lhsIdx_eq (j : (⟨2, ![A, B]⟩ : Shape).Idx) (k : d.contr.Idx) :
    d.lhsIdx j k = ix2 (j 0) ((contrEquiv1 d K (contr_rank d hlc) (contr_size d hlc)) k) := by
  funext a; apply Fin.ext
  match a with
  | ⟨0, _⟩ =>
    show (d.lhsIdx j k 0).val = (j 0).val
    have h0b : (0 : Fin (⟨2, ![A, K]⟩ : Shape).rank) ∉ d.lhsBatch := by rw [hlb]; exact List.not_mem_nil
    have h0n : (0 : Fin (⟨2, ![A, K]⟩ : Shape).rank) ∈ d.lhsNonContracting := by rw [hln]; exact List.mem_singleton.mpr rfl
    unfold DotDims.lhsIdx
    rw [dif_neg h0b, dif_pos h0n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln])
  | ⟨1, _⟩ =>
    show (d.lhsIdx j k 1).val = _
    rw [d.lhsIdx_val_of_single hlc j k]
    simp [contrEquiv1]

include hrb hrn hrc hlb hln hlc in
/-- The right operand's index at output index `j` and contraction position `k` is (k, j₁). -/
theorem rhsIdx_eq (j : (⟨2, ![A, B]⟩ : Shape).Idx) (k : d.contr.Idx) :
    d.rhsIdx j k = ix2 ((contrEquiv1 d K (contr_rank d hlc) (contr_size d hlc)) k) (j 1) := by
  funext a; apply Fin.ext
  match a with
  | ⟨0, _⟩ =>
    show (d.rhsIdx j k 0).val = _
    rw [d.rhsIdx_val_of_single hrc j k]
    simp [contrEquiv1]
  | ⟨1, _⟩ =>
    show (d.rhsIdx j k 1).val = (j 1).val
    have h1b : (1 : Fin (⟨2, ![K, B]⟩ : Shape).rank) ∉ d.rhsBatch := by rw [hrb]; exact List.not_mem_nil
    have h1n : (1 : Fin (⟨2, ![K, B]⟩ : Shape).rank) ∈ d.rhsNonContracting := by rw [hrn]; exact List.mem_singleton.mpr rfl
    unfold DotDims.rhsIdx
    rw [dif_neg h1b, dif_pos h1n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln, hrn])

include hrb hrn hrc hlb hln hlc in
/-- The contraction's sum is the matrix product at the index. -/
theorem plain_sum (x : (⟨2, ![A, K]⟩ : Shape).Idx → EReal) (w : (⟨2, ![K, B]⟩ : Shape).Idx → EReal)
    (j : (⟨2, ![A, B]⟩ : Shape).Idx) :
    ∑ k : d.contr.Idx, x (d.lhsIdx j k) * w (d.rhsIdx j k) = MM x w j := by
  unfold MM
  rw [← Equiv.sum_comp (contrEquiv1 d K (contr_rank d hlc) (contr_size d hlc)) (fun k' => x (ix2 (j 0) k') * w (ix2 k' (j 1)))]
  refine Finset.sum_congr rfl fun k _ => ?_
  rw [lhsIdx_eq d hlb hln hlc j k, rhsIdx_eq d hlb hln hlc hrb hrn hrc j k]
  rfl

include hrb hrn hrc hlb hln hlc in
/-- A `tpu.matmul` into the zero accumulator is the matrix product. -/
theorem matmul_zero_eq {φ₁ φ₂ : FTy} (prec : Option ContractPrecision) (x : FVec Ideal ⟨2, ![A, K]⟩ φ₁) (w : FVec Ideal ⟨2, ![K, B]⟩ φ₂) :
    FloatOps.matmul d prec x w (constant ⟨2, ![A, B]⟩ .f32 0x00000000#32) = MM x w := by
  funext j
  rw [Ideal.matmul_constant_zero_apply]
  exact plain_sum d hlb hln hlc hrb hrn hrc x w j

include hrb hrn hrc hlb hln hlc in
/-- The host's `dot_general` is the matrix product. -/
theorem dotGeneral_eq {φ₁ φ₂ : FTy} (prec : Option ContractPrecision) (sched : HostSchedule) (x : FVec Ideal ⟨2, ![A, K]⟩ φ₁) (w : FVec Ideal ⟨2, ![K, B]⟩ φ₂) :
    FloatOps.dotGeneral d prec sched x w = MM x w := by
  funext j
  rw [Ideal.dotGeneral_apply]
  exact plain_sum d hlb hln hlc hrb hrn hrc x w j

end Plain

end Cert.LibMatmul

end
-- ==== Proof.Region2.lean ====
/-
  The second matrix-product region, read as a value.  The region's three windows are: the left operand in blocks of
  5000 rows (block t is rows 5000·t … 5000·t + 4999, all 128 columns), the right operand whole at every point, and
  the result in blocks of 5000 rows.  The body multiplies its left block by the right operand into a zero
  accumulator, so what point t writes back is rows 5000·t … of the matrix product of the two ARRAYS as the region
  finds them; the ten blocks tile the 50000 rows, hence the result array ends as that product, entry (p, q) being
  the sum over k of left(p, k) · right(k, q) on the extended reals.
-/
import proofs.«123876_j3075196584115_1_alg».proof.Proof.Gen.KernelIdeal.Frame
import proofs.«123876_j3075196584115_1_alg».proof.Proof.LibMatmul
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)
open Idealize.ShloMosaic.ValueIdx
open scoped BigOperators

namespace Cert.KernelIdeal.Region2

open Cert.KernelIdeal Cert.KernelIdeal.Gen Cert.LibMatmul

variable (V : (c : Dev nD) → (b : Ref sig .tc) → Buf (Elt Ideal) ((c : Thread nD τ).loc b))

theorem hz : (![0, 0] : Fin 2 → Nat) = fun _ => 0 := funext fun a => by fin_cases a <;> rfl

/-- The body's stored value is the matrix product of its two loaded blocks. -/
theorem pay (x0 : FVec Ideal S5000x128 .bf16) (x1 : FVec Ideal S128x64 .bf16) :
    k2_pay1 (F := Ideal) x0 x1 = MM (A := 5000) (K := 128) (B := 64) x0 x1 := by
  unfold k2_pay1
  simp only [shapeCast_self]
  exact matmul_zero_eq dot_S5000x128_S128x64_S5000x64_1_0_0_1_n_n rfl rfl rfl rfl rfl rfl none x0 x1

/-- The three index maps over the ten points: the left operand's and the result's blocks are at row block t,
    column block 0; the right operand's block is the whole array. -/
theorem idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left operand's block at point t, at (r, k), is the array at (5000·t + r, k). -/
theorem blk_left (c : Dev nD) (t : Fin cfg2.N) (y : S5000x128.Idx) (i : S50000x128.Idx)
    (h0 : (i 0).val = t.val * 5000 + (y 0).val) (h1 : (i 1).val = (y 1).val) :
    (iblk2 V c 0 t : FVec Ideal S5000x128 .bf16) y = (V c main_v48 : S50000x128.Idx → EReal) i := by
  obtain ⟨e0, e1, -, -, -, -⟩ := idx t
  unfold iblk2
  rw [View.read_apply]
  show (V c main_v48 : S50000x128.Idx → EReal) (((cfg2.win 0).blk t).view.emb y) = _
  refine congrArg _ (funext fun a => Fin.ext ?_)
  match a with
  | ⟨0, _⟩ => show win2_0.index t (0 : Fin 2) * 5000 + 1 * (y 0).val = (i 0).val; omega
  | ⟨1, _⟩ => show win2_0.index t (1 : Fin 2) * 128 + 1 * (y 1).val = (i 1).val; omega

/-- The right operand's block at any point is the whole array. -/
theorem blk_right (c : Dev nD) (t : Fin cfg2.N) (y : S128x64.Idx) (i : S128x64.Idx)
    (h0 : (i 0).val = (y 0).val) (h1 : (i 1).val = (y 1).val) :
    (iblk2 V c 1 t : FVec Ideal S128x64 .bf16) y = (V c main_v49 : S128x64.Idx → EReal) i := by
  obtain ⟨-, -, e2, e3, -, -⟩ := idx t
  unfold iblk2
  rw [View.read_apply]
  show (V c main_v49 : S128x64.Idx → EReal) (((cfg2.win 1).blk t).view.emb y) = _
  refine congrArg _ (funext fun a => Fin.ext ?_)
  match a with
  | ⟨0, _⟩ => show win2_1.index t (0 : Fin 2) * 128 + 1 * (y 0).val = (i 0).val; omega
  | ⟨1, _⟩ => show win2_1.index t (1 : Fin 2) * 64 + 1 * (y 1).val = (i 1).val; omega

/-- The product of the two arrays the region finds. -/
abbrev G (c : Dev nD) : S50000x64.Idx → EReal :=
  MM (A := 50000) (K := 128) (B := 64) (V c main_v48) (V c main_v49)

/-- What point t writes back is block t of the product of the arrays. -/
theorem flushed_eq (c : Dev nD) (t : Fin cfg2.N) :
    (dat2 V c).flushed 2 t = ((cfg2.win 2).blk t).view.read (Elt Ideal) (G V c) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x64) hz]
  rw [pay]
  obtain ⟨-, -, -, -, e4, e5⟩ := idx t
  funext j
  rw [View.read_apply]
  have hE0 : ((((cfg2.win 2).blk t).view.emb j) 0).val = win2_2.index t (0 : Fin 2) * 5000 + 1 * (j 0).val := rfl
  have hE1 : ((((cfg2.win 2).blk t).view.emb j) 1).val = win2_2.index t (1 : Fin 2) * 64 + 1 * (j 1).val := rfl
  unfold G MM
  show @Eq EReal _ _
  refine Finset.sum_congr rfl fun k _ => ?_
  rw [blk_left V c t (ix2 (j 0) k) (ix2 ((((cfg2.win 2).blk t).view.emb j) 0) k) (by show ((((cfg2.win 2).blk t).view.emb j) 0).val = _; rw [hE0]; show _ = t.val * 5000 + (j 0).val; omega) rfl,
    blk_right V c t (ix2 k (j 1)) (ix2 k ((((cfg2.win 2).blk t).view.emb j) 1)) rfl (by show ((((cfg2.win 2).blk t).view.emb j) 1).val = (j 1).val; rw [hE1]; omega)]

/-- An index of the result array is in point t's block iff its row is in rows 5000·t … 5000·t + 4999. -/
theorem mem_blk (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v50).slice (win2_2.rect t)).set ↔ _
  rw [View.set_slice_whole, Rect.mem_set_unit]
  exact Iff.rfl

/-- The ten blocks cover the result array: row r is in block r / 5000. -/
theorem cover (i : S50000x64.Idx) : ∃ t : Fin cfg2.N, (cfg2.win 2).flush t = true ∧ i ∈ ((cfg2.win 2).blk t).view.set := by
  have hN : cfg2.N = 10 := N_2
  have hi0 : (i 0).val < 50000 := (i 0).isLt
  have hi1 : (i 1).val < 64 := (i 1).isLt
  refine ⟨⟨(i 0).val / 5000, by rw [hN]; omega⟩, flush2_2 _, ?_⟩
  rw [mem_blk]
  obtain ⟨-, -, -, -, e4, e5⟩ := idx ⟨(i 0).val / 5000, by rw [hN]; omega⟩
  intro a
  match a with
  | ⟨0, _⟩ => show win2_2.index _ (0 : Fin 2) * 5000 ≤ (i 0).val ∧ (i 0).val < win2_2.index _ (0 : Fin 2) * 5000 + 5000; rw [e4]; show (i 0).val / 5000 * 5000 ≤ (i 0).val ∧ (i 0).val < (i 0).val / 5000 * 5000 + 5000; omega
  | ⟨1, _⟩ => show win2_2.index _ (1 : Fin 2) * 64 ≤ (i 1).val ∧ (i 1).val < win2_2.index _ (1 : Fin 2) * 64 + 64; rw [e5]; omega

/-- The result array after the region: the product of the two arrays the region finds. -/
theorem final (c : Dev nD) : (dat2 V c).arrAt 2 cfg2.N = G V c :=
  (dat2 V c).arrAt_eq_of_cover 2 (G V c) (fun t _ => flushed_eq V c t) cover

end Cert.KernelIdeal.Region2

end
-- ==== Proof.Region3.lean ====
/-
  The second bias region, read as a value.  Its windows: the propagated features in blocks of 5000 rows, the bias as one
  [1, 64] row whole at every point, and the result in blocks of 5000 rows.  The body adds the bias row to every row of its
  block, so the result array ends, at (p, q), as input(p, q) + bias(0, q).
-/
import proofs.«123876_j3075196584115_1_alg».proof.Proof.Gen.KernelIdeal.Frame
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.Region3

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- An array of extended reals read at an index (the entry's type spelt as the extended reals). -/
abbrev rd (S : Shape) (f : S.Idx → EReal) (i : S.Idx) : EReal := f i

/-- The body's stored value at (r, q): the loaded block's entry plus the bias row's entry q. -/
theorem pay (x0 : FVec Ideal S5000x64 .f32) (x1 : FVec Ideal S1x64 .f32) (j : S5000x64.Idx) :
    k3_pay1 (F := Ideal) x0 x1 j = x0 j + x1 (ix2 (0 : Fin 1) (j 1)) := by
  unfold k3_pay1
  simp only [shapeCast_self]
  show x0 j + broadcastTo S5000x64 x1 broadcasts_S1x64_S5000x64 j = _
  rw [broadcastTo_apply x1 broadcasts_S1x64_S5000x64 j (ix2 (0 : Fin 1) (j 1)) (fun a => by
    match a with
    | ⟨0, _⟩ => rfl
    | ⟨1, _⟩ => rfl)]

/-- The index maps over the ten points: the input's and the result's blocks are at row block t, the bias row's
    block is the whole row. -/
theorem idx : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The input's block at point t, at (r, q), is the array at (5000·t + r, q). -/
theorem blk_in (c : Dev nD) (t : Fin cfg3.N) (y : S5000x64.Idx) (i : S50000x64.Idx)
    (h0 : (i 0).val = t.val * 5000 + (y 0).val) (h1 : (i 1).val = (y 1).val) :
    (iblk3 V c 0 t : FVec Ideal S5000x64 .f32) y = (V c main_v63 : S50000x64.Idx → EReal) i := by
  obtain ⟨e0, e1, -, -, -, -⟩ := idx t
  unfold iblk3
  rw [View.read_apply]
  show (V c main_v63 : S50000x64.Idx → EReal) (((cfg3.win 0).blk t).view.emb y) = _
  refine congrArg _ (funext fun a => Fin.ext ?_)
  match a with
  | ⟨0, _⟩ => show win3_0.index t (0 : Fin 2) * 5000 + 1 * (y 0).val = (i 0).val; omega
  | ⟨1, _⟩ => show win3_0.index t (1 : Fin 2) * 64 + 1 * (y 1).val = (i 1).val; omega

/-- The bias row's block at any point is the whole row. -/
theorem blk_bias (c : Dev nD) (t : Fin cfg3.N) (y : S1x64.Idx) (i : S1x64.Idx)
    (h0 : (i 0).val = (y 0).val) (h1 : (i 1).val = (y 1).val) :
    (iblk3 V c 1 t : FVec Ideal S1x64 .f32) y = (V c main_v64 : S1x64.Idx → EReal) i := by
  obtain ⟨-, -, e2, e3, -, -⟩ := idx t
  unfold iblk3
  rw [View.read_apply]
  show (V c main_v64 : S1x64.Idx → EReal) (((cfg3.win 1).blk t).view.emb y) = _
  refine congrArg _ (funext fun a => Fin.ext ?_)
  match a with
  | ⟨0, _⟩ => show win3_1.index t (0 : Fin 2) * 1 + 1 * (y 0).val = (i 0).val; omega
  | ⟨1, _⟩ => show win3_1.index t (1 : Fin 2) * 64 + 1 * (y 1).val = (i 1).val; omega

/-- The whole-array function: entry (p, q) of the input array plus entry q of the bias row. -/
abbrev G (c : Dev nD) : S50000x64.Idx → EReal := fun i =>
  rd S50000x64 (V c main_v63) i + rd S1x64 (V c main_v64) (ix2 (0 : Fin 1) (i 1))

/-- What point t writes back is block t of that function of the arrays. -/
theorem flushed_eq (c : Dev nD) (t : Fin cfg3.N) :
    (dat3 V c).flushed 2 t = ((cfg3.win 2).blk t).view.read (Elt Ideal) (G V c) := by
  show (cfg3.win 2).cut (grid3.coords t) ((dat3 V c).after 2 t) = _
  rw [after3_2]
  unfold out3_2
  rw [View.canon_unit_zero hz]
  simp only [View.ld_unit_zero (S := S5000x64) hz, View.ld_unit_zero (S := S1x64) hz]
  obtain ⟨-, -, -, -, e4, e5⟩ := idx t
  funext j
  rw [View.read_apply]
  show k3_pay1 (F := Ideal) (iblk3 V c 0 t) (iblk3 V c 1 t) j = G V c (((cfg3.win 2).blk t).view.emb j)
  rw [pay]
  have hE0 : ((((cfg3.win 2).blk t).view.emb j) 0).val = win3_2.index t (0 : Fin 2) * 5000 + 1 * (j 0).val := rfl
  have hE1 : ((((cfg3.win 2).blk t).view.emb j) 1).val = win3_2.index t (1 : Fin 2) * 64 + 1 * (j 1).val := rfl
  rw [blk_in V c t j (((cfg3.win 2).blk t).view.emb j) (by rw [hE0]; omega) (by rw [hE1]; omega),
    blk_bias V c t (ix2 (0 : Fin 1) (j 1)) (ix2 (0 : Fin 1) ((((cfg3.win 2).blk t).view.emb j) 1)) rfl (by show ((((cfg3.win 2).blk t).view.emb j) 1).val = (j 1).val; rw [hE1]; omega)]

/-- An index of the result array is in point t's block iff its row is in rows 5000·t … 5000·t + 4999. -/
theorem mem_blk (t : Fin cfg3.N) (i : S50000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v65).slice (win3_2.rect t)).set ↔ _
  rw [View.set_slice_whole, Rect.mem_set_unit]
  exact Iff.rfl

/-- The ten blocks cover the result array: row r is in block r / 5000. -/
theorem cover (i : S50000x64.Idx) : ∃ t : Fin cfg3.N, (cfg3.win 2).flush t = true ∧ i ∈ ((cfg3.win 2).blk t).view.set := by
  have hN : cfg3.N = 10 := N_3
  have hi0 : (i 0).val < 50000 := (i 0).isLt
  have hi1 : (i 1).val < 64 := (i 1).isLt
  refine ⟨⟨(i 0).val / 5000, by rw [hN]; omega⟩, flush3_2 _, ?_⟩
  rw [mem_blk]
  obtain ⟨-, -, -, -, e4, e5⟩ := idx ⟨(i 0).val / 5000, by rw [hN]; omega⟩
  intro a
  match a with
  | ⟨0, _⟩ => show win3_2.index _ (0 : Fin 2) * 5000 ≤ (i 0).val ∧ (i 0).val < win3_2.index _ (0 : Fin 2) * 5000 + 5000; rw [e4]; show (i 0).val / 5000 * 5000 ≤ (i 0).val ∧ (i 0).val < (i 0).val / 5000 * 5000 + 5000; omega
  | ⟨1, _⟩ => show win3_2.index _ (1 : Fin 2) * 64 ≤ (i 1).val ∧ (i 1).val < win3_2.index _ (1 : Fin 2) * 64 + 64; rw [e5]; omega

/-- The result array after the region. -/
theorem final (c : Dev nD) : (dat3 V c).arrAt 2 cfg3.N = G V c :=
  (dat3 V c).arrAt_eq_of_cover 2 (G V c) (fun t _ => flushed_eq V c t) cover

end Cert.KernelIdeal.Region3

end
-- ==== Proof.Region1.lean ====
/-
  The first bias region, read as a value.  Its windows: the propagated features in blocks of 5000 rows, the bias as one
  [1, 128] row whole at every point, and the result in blocks of 5000 rows.  The body adds the bias row to every row of
  its block and takes the maximum with zero, so the result array ends, at (p, q), as max(input(p, q) + bias(0, q), 0).
-/
import proofs.«123876_j3075196584115_1_alg».proof.Proof.Gen.KernelIdeal.Frame
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.Region1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- An array of extended reals read at an index (the entry's type spelt as the extended reals). -/
abbrev rd (S : Shape) (f : S.Idx → EReal) (i : S.Idx) : EReal := f i

/-- The body's stored value at (r, q): the loaded block's entry plus the bias row's entry q, then the maximum with zero. -/
theorem pay (x0 : FVec Ideal S5000x128 .f32) (x1 : FVec Ideal S1x128 .f32) (j : S5000x128.Idx) :
    k1_pay1 (F := Ideal) x0 x1 j = max (x0 j + x1 (ix2 (0 : Fin 1) (j 1))) (Ideal.ofBits .f32 0x00000000#32) := by
  unfold k1_pay1
  simp only [shapeCast_self]
  show max (x0 j + broadcastTo S5000x128 x1 broadcasts_S1x128_S5000x128 j) _ = _
  rw [broadcastTo_apply x1 broadcasts_S1x128_S5000x128 j (ix2 (0 : Fin 1) (j 1)) (fun a => by
    match a with
    | ⟨0, _⟩ => rfl
    | ⟨1, _⟩ => rfl)]
  rfl

/-- The index maps over the ten points: the input's and the result's blocks are at row block t, the bias row's
    block is the whole row. -/
theorem idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The input's block at point t, at (r, q), is the array at (5000·t + r, q). -/
theorem blk_in (c : Dev nD) (t : Fin cfg1.N) (y : S5000x128.Idx) (i : S50000x128.Idx)
    (h0 : (i 0).val = t.val * 5000 + (y 0).val) (h1 : (i 1).val = (y 1).val) :
    (iblk1 V c 0 t : FVec Ideal S5000x128 .f32) y = (V c main_v45 : S50000x128.Idx → EReal) i := by
  obtain ⟨e0, e1, -, -, -, -⟩ := idx t
  unfold iblk1
  rw [View.read_apply]
  show (V c main_v45 : S50000x128.Idx → EReal) (((cfg1.win 0).blk t).view.emb y) = _
  refine congrArg _ (funext fun a => Fin.ext ?_)
  match a with
  | ⟨0, _⟩ => show win1_0.index t (0 : Fin 2) * 5000 + 1 * (y 0).val = (i 0).val; omega
  | ⟨1, _⟩ => show win1_0.index t (1 : Fin 2) * 128 + 1 * (y 1).val = (i 1).val; omega

/-- The bias row's block at any point is the whole row. -/
theorem blk_bias (c : Dev nD) (t : Fin cfg1.N) (y : S1x128.Idx) (i : S1x128.Idx)
    (h0 : (i 0).val = (y 0).val) (h1 : (i 1).val = (y 1).val) :
    (iblk1 V c 1 t : FVec Ideal S1x128 .f32) y = (V c main_v46 : S1x128.Idx → EReal) i := by
  obtain ⟨-, -, e2, e3, -, -⟩ := idx t
  unfold iblk1
  rw [View.read_apply]
  show (V c main_v46 : S1x128.Idx → EReal) (((cfg1.win 1).blk t).view.emb y) = _
  refine congrArg _ (funext fun a => Fin.ext ?_)
  match a with
  | ⟨0, _⟩ => show win1_1.index t (0 : Fin 2) * 1 + 1 * (y 0).val = (i 0).val; omega
  | ⟨1, _⟩ => show win1_1.index t (1 : Fin 2) * 128 + 1 * (y 1).val = (i 1).val; omega

/-- The whole-array function: entry (p, q) of the input array plus entry q of the bias row, then the maximum with zero. -/
abbrev G (c : Dev nD) : S50000x128.Idx → EReal := fun i =>
  max (rd S50000x128 (V c main_v45) i + rd S1x128 (V c main_v46) (ix2 (0 : Fin 1) (i 1))) (Ideal.ofBits .f32 0x00000000#32)

/-- What point t writes back is block t of that function of the arrays. -/
theorem flushed_eq (c : Dev nD) (t : Fin cfg1.N) :
    (dat1 V c).flushed 2 t = ((cfg1.win 2).blk t).view.read (Elt Ideal) (G V c) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  obtain ⟨-, -, -, -, e4, e5⟩ := idx t
  funext j
  rw [View.read_apply]
  show k1_pay1 (F := Ideal) (iblk1 V c 0 t) (iblk1 V c 1 t) j = G V c (((cfg1.win 2).blk t).view.emb j)
  rw [pay]
  have hE0 : ((((cfg1.win 2).blk t).view.emb j) 0).val = win1_2.index t (0 : Fin 2) * 5000 + 1 * (j 0).val := rfl
  have hE1 : ((((cfg1.win 2).blk t).view.emb j) 1).val = win1_2.index t (1 : Fin 2) * 128 + 1 * (j 1).val := rfl
  rw [blk_in V c t j (((cfg1.win 2).blk t).view.emb j) (by rw [hE0]; omega) (by rw [hE1]; omega),
    blk_bias V c t (ix2 (0 : Fin 1) (j 1)) (ix2 (0 : Fin 1) ((((cfg1.win 2).blk t).view.emb j) 1)) rfl (by show ((((cfg1.win 2).blk t).view.emb j) 1).val = (j 1).val; rw [hE1]; omega)]

/-- An index of the result array is in point t's block iff its row is in rows 5000·t … 5000·t + 4999. -/
theorem mem_blk (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v47).slice (win1_2.rect t)).set ↔ _
  rw [View.set_slice_whole, Rect.mem_set_unit]
  exact Iff.rfl

/-- The ten blocks cover the result array: row r is in block r / 5000. -/
theorem cover (i : S50000x128.Idx) : ∃ t : Fin cfg1.N, (cfg1.win 2).flush t = true ∧ i ∈ ((cfg1.win 2).blk t).view.set := by
  have hN : cfg1.N = 10 := N_1
  have hi0 : (i 0).val < 50000 := (i 0).isLt
  have hi1 : (i 1).val < 128 := (i 1).isLt
  refine ⟨⟨(i 0).val / 5000, by rw [hN]; omega⟩, flush1_2 _, ?_⟩
  rw [mem_blk]
  obtain ⟨-, -, -, -, e4, e5⟩ := idx ⟨(i 0).val / 5000, by rw [hN]; omega⟩
  intro a
  match a with
  | ⟨0, _⟩ => show win1_2.index _ (0 : Fin 2) * 5000 ≤ (i 0).val ∧ (i 0).val < win1_2.index _ (0 : Fin 2) * 5000 + 5000; rw [e4]; show (i 0).val / 5000 * 5000 ≤ (i 0).val ∧ (i 0).val < (i 0).val / 5000 * 5000 + 5000; omega
  | ⟨1, _⟩ => show win1_2.index _ (1 : Fin 2) * 128 ≤ (i 1).val ∧ (i 1).val < win1_2.index _ (1 : Fin 2) * 128 + 128; rw [e5]; omega

/-- The result array after the region. -/
theorem final (c : Dev nD) : (dat1 V c).arrAt 2 cfg1.N = G V c :=
  (dat1 V c).arrAt_eq_of_cover 2 (G V c) (fun t _ => flushed_eq V c t) cover

end Cert.KernelIdeal.Region1

end
-- ==== Proof.Region0.lean ====
/-
  The first matrix-product region, read as a value.  The region's three windows are: the left operand in blocks of
  5000 rows (block t is rows 5000·t … 5000·t + 4999, all 256 columns), the right operand whole at every point, and
  the result in blocks of 5000 rows.  The body multiplies its left block by the right operand into a zero
  accumulator, so what point t writes back is rows 5000·t … of the matrix product of the two ARRAYS as the region
  finds them; the ten blocks tile the 50000 rows, hence the result array ends as that product, entry (p, q) being
  the sum over k of left(p, k) · right(k, q) on the extended reals.
-/
import proofs.«123876_j3075196584115_1_alg».proof.Proof.Gen.KernelIdeal.Frame
import proofs.«123876_j3075196584115_1_alg».proof.Proof.LibMatmul
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)
open Idealize.ShloMosaic.ValueIdx
open scoped BigOperators

namespace Cert.KernelIdeal.Region0

open Cert.KernelIdeal Cert.KernelIdeal.Gen Cert.LibMatmul

variable (V : (c : Dev nD) → (b : Ref sig .tc) → Buf (Elt Ideal) ((c : Thread nD τ).loc b))

theorem hz : (![0, 0] : Fin 2 → Nat) = fun _ => 0 := funext fun a => by fin_cases a <;> rfl

/-- The body's stored value is the matrix product of its two loaded blocks. -/
theorem pay (x0 : FVec Ideal S5000x256 .bf16) (x1 : FVec Ideal S256x128 .bf16) :
    k0_pay1 (F := Ideal) x0 x1 = MM (A := 5000) (K := 256) (B := 128) x0 x1 := by
  unfold k0_pay1
  simp only [shapeCast_self]
  exact matmul_zero_eq dot_S5000x256_S256x128_S5000x128_1_0_0_1_n_n rfl rfl rfl rfl rfl rfl none x0 x1

/-- The three index maps over the ten points: the left operand's and the result's blocks are at row block t,
    column block 0; the right operand's block is the whole array. -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point t, at (r, k), is the array at (5000·t + r, k). -/
theorem blk_left (c : Dev nD) (t : Fin cfg0.N) (y : S5000x256.Idx) (i : S50000x256.Idx)
    (h0 : (i 0).val = t.val * 5000 + (y 0).val) (h1 : (i 1).val = (y 1).val) :
    (iblk0 V c 0 t : FVec Ideal S5000x256 .bf16) y = (V c main_v30 : S50000x256.Idx → EReal) i := by
  obtain ⟨e0, e1, -, -, -, -⟩ := idx t
  unfold iblk0
  rw [View.read_apply]
  show (V c main_v30 : S50000x256.Idx → EReal) (((cfg0.win 0).blk t).view.emb y) = _
  refine congrArg _ (funext fun a => Fin.ext ?_)
  match a with
  | ⟨0, _⟩ => show win0_0.index t (0 : Fin 2) * 5000 + 1 * (y 0).val = (i 0).val; omega
  | ⟨1, _⟩ => show win0_0.index t (1 : Fin 2) * 256 + 1 * (y 1).val = (i 1).val; omega

/-- The right operand's block at any point is the whole array. -/
theorem blk_right (c : Dev nD) (t : Fin cfg0.N) (y : S256x128.Idx) (i : S256x128.Idx)
    (h0 : (i 0).val = (y 0).val) (h1 : (i 1).val = (y 1).val) :
    (iblk0 V c 1 t : FVec Ideal S256x128 .bf16) y = (V c main_v31 : S256x128.Idx → EReal) i := by
  obtain ⟨-, -, e2, e3, -, -⟩ := idx t
  unfold iblk0
  rw [View.read_apply]
  show (V c main_v31 : S256x128.Idx → EReal) (((cfg0.win 1).blk t).view.emb y) = _
  refine congrArg _ (funext fun a => Fin.ext ?_)
  match a with
  | ⟨0, _⟩ => show win0_1.index t (0 : Fin 2) * 256 + 1 * (y 0).val = (i 0).val; omega
  | ⟨1, _⟩ => show win0_1.index t (1 : Fin 2) * 128 + 1 * (y 1).val = (i 1).val; omega

/-- The product of the two arrays the region finds. -/
abbrev G (c : Dev nD) : S50000x128.Idx → EReal :=
  MM (A := 50000) (K := 256) (B := 128) (V c main_v30) (V c main_v31)

/-- What point t writes back is block t of the product of the arrays. -/
theorem flushed_eq (c : Dev nD) (t : Fin cfg0.N) :
    (dat0 V c).flushed 2 t = ((cfg0.win 2).blk t).view.read (Elt Ideal) (G V c) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x128) hz]
  rw [pay]
  obtain ⟨-, -, -, -, e4, e5⟩ := idx t
  funext j
  rw [View.read_apply]
  have hE0 : ((((cfg0.win 2).blk t).view.emb j) 0).val = win0_2.index t (0 : Fin 2) * 5000 + 1 * (j 0).val := rfl
  have hE1 : ((((cfg0.win 2).blk t).view.emb j) 1).val = win0_2.index t (1 : Fin 2) * 128 + 1 * (j 1).val := rfl
  unfold G MM
  show @Eq EReal _ _
  refine Finset.sum_congr rfl fun k _ => ?_
  rw [blk_left V c t (ix2 (j 0) k) (ix2 ((((cfg0.win 2).blk t).view.emb j) 0) k) (by show ((((cfg0.win 2).blk t).view.emb j) 0).val = _; rw [hE0]; show _ = t.val * 5000 + (j 0).val; omega) rfl,
    blk_right V c t (ix2 k (j 1)) (ix2 k ((((cfg0.win 2).blk t).view.emb j) 1)) rfl (by show ((((cfg0.win 2).blk t).view.emb j) 1).val = (j 1).val; rw [hE1]; omega)]

/-- An index of the result array is in point t's block iff its row is in rows 5000·t … 5000·t + 4999. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- The ten blocks cover the result array: row r is in block r / 5000. -/
theorem cover (i : S50000x128.Idx) : ∃ t : Fin cfg0.N, (cfg0.win 2).flush t = true ∧ i ∈ ((cfg0.win 2).blk t).view.set := by
  have hN : cfg0.N = 10 := N_0
  have hi0 : (i 0).val < 50000 := (i 0).isLt
  have hi1 : (i 1).val < 128 := (i 1).isLt
  refine ⟨⟨(i 0).val / 5000, by rw [hN]; omega⟩, flush0_2 _, ?_⟩
  rw [mem_blk]
  obtain ⟨-, -, -, -, e4, e5⟩ := idx ⟨(i 0).val / 5000, by rw [hN]; omega⟩
  intro a
  match a with
  | ⟨0, _⟩ => show win0_2.index _ (0 : Fin 2) * 5000 ≤ (i 0).val ∧ (i 0).val < win0_2.index _ (0 : Fin 2) * 5000 + 5000; rw [e4]; show (i 0).val / 5000 * 5000 ≤ (i 0).val ∧ (i 0).val < (i 0).val / 5000 * 5000 + 5000; omega
  | ⟨1, _⟩ => show win0_2.index _ (1 : Fin 2) * 128 ≤ (i 1).val ∧ (i 1).val < win0_2.index _ (1 : Fin 2) * 128 + 128; rw [e5]; omega

/-- The result array after the region: the product of the two arrays the region finds. -/
theorem final (c : Dev nD) : (dat0 V c).arrAt 2 cfg0.N = G V c :=
  (dat0 V c).arrAt_eq_of_cover 2 (G V c) (fun t _ => flushed_eq V c t) cover

end Cert.KernelIdeal.Region0

end
-- ==== Proof.Bridge0.lean ====
/-
  The start of the kernel's program met with the reference's stages.  Before the first region the program computes, from the
  edge list alone, three arrays that both layers use again: the source node of every edge and self loop, the target node of
  each, and each one's normalisation factor (the product of the inverse square roots of the two end nodes' degrees).  They are
  the same operations, in the same order, as the reference's, so each equals the reference's stage by unfolding — at any float
  values, since no float is read.  The first region multiplies the bf16 casts of the features and of the first weight matrix; a
  change of float format is the identity on the extended reals, so the region's result is the reference's matrix product of
  the two arguments.
-/
import proofs.«123876_j3075196584115_1_alg».proof.Proof.Gen.KernelIdeal.Frame
import proofs.«123876_j3075196584115_1_alg».proof.Proof.RefRead
import proofs.«123876_j3075196584115_1_alg».proof.Proof.LibMatmul
import proofs.«123876_j3075196584115_1_alg».proof.Proof.Region0
import Idealize.ShloMosaic.Lib.StableHlo.Run
import Idealize.ShloMosaic.Lib.Pipeline.Value
import Idealize.ShloMosaic.Lib.ValueIdx

noncomputable section

open Idealize.ShloMosaic Idealize.ShloMosaic.TcCoe Idealize.SL.Sem Idealize.ShloMosaic.StableHlo
open Idealize.ShloMosaic.ValueIdx

namespace Cert.Bridge

open Cert.KernelIdeal Cert.KernelIdeal.Gen Cert.LibMatmul
open Cert.ReferenceIdeal.ReadP

section AnyValues
/- The host operations mean the same at any float values: these facts do not read a float. -/
variable {F : FTy → Type} [FloatOps F]
variable (m : (ℓ : Loc nD τ sig) → Buf (Elt F) ℓ) (ρ : Dev nD → PrngReg) (c : Dev nD)

/-- The source node of every edge and self loop, as the first region finds it. -/
theorem src_W3 : W3 m ρ c (Proc.devRef .tc main_v3) = val_main_v3 (F := F) (m ((c : Thread nD τ).loc main_arg1)) := by
  dsimp only [W3, W2, W1, hostOps0_2, hostOps0_1, hostOps0]
  after_results_simp
  rfl

/-- The target node of every edge and self loop. -/
theorem dst_W3 : W3 m ρ c (Proc.devRef .tc main_v6) = val_main_v6 (F := F) (m ((c : Thread nD τ).loc main_arg1)) := by
  dsimp only [W3, W2, W1, hostOps0_2, hostOps0_1, hostOps0]
  after_results_simp
  rfl

/-- The normalisation factor of every edge and self loop. -/
theorem norm_W3 : W3 m ρ c (Proc.devRef .tc main_v29) = val_main_v29 (F := F) (m ((c : Thread nD τ).loc main_arg1)) := by
  dsimp only [W3, W2, W1, hostOps0_2, hostOps0_1, hostOps0]
  after_results_simp
  rfl

end AnyValues

section ExtendedReals
variable (m : (ℓ : Loc nD τ sig) → Buf (Elt Ideal) ℓ) (ρ : Dev nD → PrngReg) (c : Dev nD)

/-- The features cast to bf16 are the features. -/
theorem x_W3 : (V3 m ρ c main_v30 : S50000x256.Idx → EReal) = (m ((c : Thread nD τ).loc main_arg0) : S50000x256.Idx → EReal) := by
  dsimp only [V3, W3, W2, W1, hostOps0_2, hostOps0_1, hostOps0]
  after_results_simp
  rfl

/-- The first weight matrix cast to bf16 is the matrix. -/
theorem w1_W3 : (V3 m ρ c main_v31 : S256x128.Idx → EReal) = (m ((c : Thread nD τ).loc main_arg4) : S256x128.Idx → EReal) := by
  dsimp only [V3, W3, W2, W1, hostOps0_2, hostOps0_1, hostOps0]
  after_results_simp
  rfl

/-- The first region's result is the reference's product of the features and the first weight matrix. -/
theorem h0_W4 : W4 m ρ c (Proc.devRef .tc main_v32) = val_main_v30 (F := Ideal) (m ((c : Thread nD τ).loc main_arg0)) (m ((c : Thread nD τ).loc main_arg4)) := by
  refine (W4_arr m ρ c 2).trans ?_
  refine (Region0.final (V3 m ρ) c).trans ?_
  unfold Region0.G
  rw [x_W3, w1_W3]
  unfold val_main_v30
  exact (dotGeneral_eq Cert.ReferenceIdeal.dot_S50000x256_S256x128_S50000x128_1_0_0_1_n_n rfl rfl rfl rfl rfl rfl none .single _ _).symm

end ExtendedReals

end Cert.Bridge

end
-- ==== Proof.Bridge1.lean ====
/-
  The first layer after its matrix product.  The host gathers the product's rows at the edges' source nodes, scales each by
  its edge's normalisation factor and adds them up at the target nodes; these are the reference's operations on the same
  values, so the propagated features are the reference's stage (at any float values).  The second region adds the bias row and
  takes the maximum with zero; the reference broadcasts the bias over the rows, adds and applies its relu: entry by entry the
  same extended real.
-/
import proofs.«123876_j3075196584115_1_alg».proof.Proof.Gen.KernelIdeal.Frame
import proofs.«123876_j3075196584115_1_alg».proof.Proof.RefRead
import proofs.«123876_j3075196584115_1_alg».proof.Proof.LibMatmul
import proofs.«123876_j3075196584115_1_alg».proof.Proof.Region1
import proofs.«123876_j3075196584115_1_alg».proof.Proof.Bridge0
import Idealize.ShloMosaic.Lib.StableHlo.Run
import Idealize.ShloMosaic.Lib.Pipeline.Value
import Idealize.ShloMosaic.Lib.ValueIdx

noncomputable section

open Idealize.ShloMosaic Idealize.ShloMosaic.TcCoe Idealize.SL.Sem Idealize.ShloMosaic.StableHlo
open Idealize.ShloMosaic.ValueIdx

namespace Cert.Bridge

open Cert.KernelIdeal Cert.KernelIdeal.Gen Cert.LibMatmul
open Cert.ReferenceIdeal.ReadP

section AnyValues
/- The host operations mean the same at any float values: these facts do not read a float. -/
variable {F : FTy → Type} [FloatOps F]
variable (m : (ℓ : Loc nD τ sig) → Buf (Elt F) ℓ) (ρ : Dev nD → PrngReg) (c : Dev nD)

/-- The edges' source nodes, target nodes and normalisation factors, carried unchanged through the first region. -/
theorem src_W4 : W4 m ρ c (Proc.devRef .tc main_v3) = val_main_v3 (F := F) (m ((c : Thread nD τ).loc main_arg1)) :=
  (W4_of_ne m ρ c main_v3 (by decide)).trans (src_W3 m ρ c)
theorem dst_W4 : W4 m ρ c (Proc.devRef .tc main_v6) = val_main_v6 (F := F) (m ((c : Thread nD τ).loc main_arg1)) :=
  (W4_of_ne m ρ c main_v6 (by decide)).trans (dst_W3 m ρ c)
theorem norm_W4 : W4 m ρ c (Proc.devRef .tc main_v29) = val_main_v29 (F := F) (m ((c : Thread nD τ).loc main_arg1)) :=
  (W4_of_ne m ρ c main_v29 (by decide)).trans (norm_W3 m ρ c)

/-- The first bias is, after the first region, what was launched: nothing writes an argument array. -/
theorem arg5_W4 : W4 m ρ c (Proc.devRef .tc main_arg5) = m ((c : Thread nD τ).loc main_arg5) := by
  refine (W4_of_ne m ρ c main_arg5 (by decide)).trans ?_
  dsimp only [W3, W2, W1, hostOps0_2, hostOps0_1, hostOps0]
  after_results_simp

/-- The features propagated along the edges (first layer) are the reference's, given that the product they start from is. -/
theorem pre1_W5 (hH : W4 m ρ c (Proc.devRef .tc main_v32) = val_main_v30 (F := F) (m ((c : Thread nD τ).loc main_arg0)) (m ((c : Thread nD τ).loc main_arg4))) :
    W5 m ρ c (Proc.devRef .tc main_v45) = val_main_v43 (F := F) (m ((c : Thread nD τ).loc main_arg0)) (m ((c : Thread nD τ).loc main_arg1)) (m ((c : Thread nD τ).loc main_arg4)) := by
  dsimp only [W5, hostOps1]
  after_results_simp
  rw [hH, src_W4, dst_W4, norm_W4]
  rfl

/-- The first bias, laid out as one row. -/
theorem bias1_W5 : W5 m ρ c (Proc.devRef .tc main_v46)
    = shapeCast S1x128 (m ((c : Thread nD τ).loc main_arg5)) shapeCasts_S128_S1x128 := by
  dsimp only [W5, hostOps1]
  after_results_simp
  rw [arg5_W4]
  rfl

end AnyValues

section ExtendedReals
variable (m : (ℓ : Loc nD τ sig) → Buf (Elt Ideal) ℓ) (ρ : Dev nD → PrngReg) (c : Dev nD)

/-- The hidden features after the second region are the reference's: bias added, then the maximum with zero. -/
theorem h_W6 : W6 m ρ c (Proc.devRef .tc main_v47) = val_main_v47 (F := Ideal) (m ((c : Thread nD τ).loc main_arg0)) (m ((c : Thread nD τ).loc main_arg1)) (m ((c : Thread nD τ).loc main_arg4)) (m ((c : Thread nD τ).loc main_arg5)) := by
  refine (W6_arr m ρ c 2).trans ?_
  refine (Region1.final (V5 m ρ) c).trans ?_
  have e1 : (V5 m ρ c main_v45 : S50000x128.Idx → EReal) = val_main_v43 (F := Ideal) (m ((c : Thread nD τ).loc main_arg0)) (m ((c : Thread nD τ).loc main_arg1)) (m ((c : Thread nD τ).loc main_arg4)) := pre1_W5 m ρ c (h0_W4 m ρ c)
  have e2 : (V5 m ρ c main_v46 : S1x128.Idx → EReal) = shapeCast S1x128 (m ((c : Thread nD τ).loc main_arg5)) shapeCasts_S128_S1x128 := bias1_W5 m ρ c
  funext i
  dsimp only [Region1.G, Region1.rd]
  rw [e1, e2, val_main_v47_apply, val_main_v46_apply, val_main_v45_apply, val_main_v44_apply, val_main_call1_v0_apply]
  rw [shapeCast_apply _ shapeCasts_S128_S1x128 (ix2 (0 : Fin 1) (i 1)) (idx_main_v44 (idx_main_v45 i)) (by
    rw [Shape.rowMajor_val_one, Shape.rowMajor_val_two]
    show (i 1).val = 0 * 128 + (i 1).val
    omega)]
  rfl

end ExtendedReals

end Cert.Bridge

end
-- ==== Proof.Bridge2.lean ====
/-
  The second layer.  The hidden features are cast to bf16 (the identity on the extended reals) and multiplied by the second
  weight matrix in the third region: the reference's second matrix product.  The host then propagates the product along the
  same edges with the same normalisation factors — arrays the program computed once, before the first region, and that no
  region writes; the reference computes them again from the edge list by the same operations — and the fourth region adds the
  second bias row: the reference's node embeddings.
-/
import proofs.«123876_j3075196584115_1_alg».proof.Proof.Gen.KernelIdeal.Frame
import proofs.«123876_j3075196584115_1_alg».proof.Proof.RefRead
import proofs.«123876_j3075196584115_1_alg».proof.Proof.LibMatmul
import proofs.«123876_j3075196584115_1_alg».proof.Proof.Region2
import proofs.«123876_j3075196584115_1_alg».proof.Proof.Region3
import proofs.«123876_j3075196584115_1_alg».proof.Proof.Bridge1
import Idealize.ShloMosaic.Lib.StableHlo.Run
import Idealize.ShloMosaic.Lib.Pipeline.Value
import Idealize.ShloMosaic.Lib.ValueIdx

noncomputable section

open Idealize.ShloMosaic Idealize.ShloMosaic.TcCoe Idealize.SL.Sem Idealize.ShloMosaic.StableHlo
open Idealize.ShloMosaic.ValueIdx

namespace Cert.Bridge

open Cert.KernelIdeal Cert.KernelIdeal.Gen Cert.LibMatmul
open Cert.ReferenceIdeal.ReadP

section AnyValues
/- The host operations mean the same at any float values: these facts do not read a float. -/
variable {F : FTy → Type} [FloatOps F]
variable (m : (ℓ : Loc nD τ sig) → Buf (Elt F) ℓ) (ρ : Dev nD → PrngReg) (c : Dev nD)

/-- The reference computes the edges' source nodes, target nodes and normalisation factors a second time, by the same
    operations on the same edge list. -/
theorem src_again (x1 : (⟨S2x800000, .i32⟩ : BufTy).Contents (Elt F)) : val_main_v3 (F := F) x1 = val_main_v51 (F := F) x1 := rfl
theorem dst_again (x1 : (⟨S2x800000, .i32⟩ : BufTy).Contents (Elt F)) : val_main_v6 (F := F) x1 = val_main_v54 (F := F) x1 := rfl
theorem norm_again (x1 : (⟨S2x800000, .i32⟩ : BufTy).Contents (Elt F)) : val_main_v29 (F := F) x1 = val_main_v77 (F := F) x1 := rfl

/-- The second weight matrix is, after the second region, what was launched. -/
theorem arg6_W6 : W6 m ρ c (Proc.devRef .tc main_arg6) = m ((c : Thread nD τ).loc main_arg6) := by
  refine (W6_of_ne m ρ c main_arg6 (by decide)).trans ?_
  dsimp only [W5, hostOps1]
  after_results_simp
  refine (W4_of_ne m ρ c main_arg6 (by decide)).trans ?_
  dsimp only [W3, W2, W1, hostOps0_2, hostOps0_1, hostOps0]
  after_results_simp

/-- A buffer that neither the second nor the third region owns, and that the host operations between them do not write,
    is after the third region what it was after the first. -/
theorem carried_W8 (b : Ref sig .tc) (h0 : ∀ w, Pipeline.arrRef spec2 w ≠ b) (h1 : ∀ w, Pipeline.arrRef spec1 w ≠ b)
    (hb2 : W7 m ρ c (Proc.devRef .tc b) = W6 m ρ c (Proc.devRef .tc b)) (hb1 : W5 m ρ c (Proc.devRef .tc b) = W4 m ρ c (Proc.devRef .tc b)) :
    W8 m ρ c (Proc.devRef .tc b) = W4 m ρ c (Proc.devRef .tc b) :=
  (W8_of_ne m ρ c b h0).trans (hb2.trans ((W6_of_ne m ρ c b h1).trans hb1))

theorem src_W8 : W8 m ρ c (Proc.devRef .tc main_v3) = val_main_v51 (F := F) (m ((c : Thread nD τ).loc main_arg1)) :=
  (carried_W8 m ρ c main_v3 (by decide) (by decide) (by dsimp only [W7, hostOps2]; after_results_simp) (by dsimp only [W5, hostOps1]; after_results_simp)).trans ((src_W4 m ρ c).trans (src_again _))
theorem dst_W8 : W8 m ρ c (Proc.devRef .tc main_v6) = val_main_v54 (F := F) (m ((c : Thread nD τ).loc main_arg1)) :=
  (carried_W8 m ρ c main_v6 (by decide) (by decide) (by dsimp only [W7, hostOps2]; after_results_simp) (by dsimp only [W5, hostOps1]; after_results_simp)).trans ((dst_W4 m ρ c).trans (dst_again _))
theorem norm_W8 : W8 m ρ c (Proc.devRef .tc main_v29) = val_main_v77 (F := F) (m ((c : Thread nD τ).loc main_arg1)) :=
  (carried_W8 m ρ c main_v29 (by decide) (by decide) (by dsimp only [W7, hostOps2]; after_results_simp) (by dsimp only [W5, hostOps1]; after_results_simp)).trans ((norm_W4 m ρ c).trans (norm_again _))
theorem arg7_W8 : W8 m ρ c (Proc.devRef .tc main_arg7) = m ((c : Thread nD τ).loc main_arg7) := by
  refine (carried_W8 m ρ c main_arg7 (by decide) (by decide) (by dsimp only [W7, hostOps2]; after_results_simp) (by dsimp only [W5, hostOps1]; after_results_simp)).trans ?_
  refine (W4_of_ne m ρ c main_arg7 (by decide)).trans ?_
  dsimp only [W3, W2, W1, hostOps0_2, hostOps0_1, hostOps0]
  after_results_simp

/-- The features propagated along the edges (second layer) are the reference's, given that the product they start from is. -/
theorem pre2_W9 (hH : W8 m ρ c (Proc.devRef .tc main_v50) = val_main_v78 (F := F) (m ((c : Thread nD τ).loc main_arg0)) (m ((c : Thread nD τ).loc main_arg1)) (m ((c : Thread nD τ).loc main_arg4)) (m ((c : Thread nD τ).loc main_arg5)) (m ((c : Thread nD τ).loc main_arg6))) :
    W9 m ρ c (Proc.devRef .tc main_v63) = val_main_v91 (F := F) (m ((c : Thread nD τ).loc main_arg0)) (m ((c : Thread nD τ).loc main_arg1)) (m ((c : Thread nD τ).loc main_arg4)) (m ((c : Thread nD τ).loc main_arg5)) (m ((c : Thread nD τ).loc main_arg6)) := by
  dsimp only [W9, hostOps3]
  after_results_simp
  rw [hH, src_W8, dst_W8, norm_W8]
  rfl

/-- The second bias, laid out as one row. -/
theorem bias2_W9 : W9 m ρ c (Proc.devRef .tc main_v64)
    = shapeCast S1x64 (m ((c : Thread nD τ).loc main_arg7)) shapeCasts_S64_S1x64 := by
  dsimp only [W9, hostOps3]
  after_results_simp
  rw [arg7_W8]
  rfl

end AnyValues

section ExtendedReals
variable (m : (ℓ : Loc nD τ sig) → Buf (Elt Ideal) ℓ) (ρ : Dev nD → PrngReg) (c : Dev nD)

/-- On the extended reals a cast of an f32 vector to bf16 is the vector: every entry is kept. -/
theorem bf16_cast_id {s : Shape} (y : FVec Ideal s .f32) (h : FTy.bf16.bits < FTy.f32.bits) :
    (truncf .bf16 y h : s.Idx → EReal) = (y : s.Idx → EReal) :=
  funext fun i => Ideal.truncf_def (x := y i) .bf16 h

/-- The hidden features cast to bf16 are the hidden features. -/
theorem h_W7 : (V7 m ρ c main_v48 : S50000x128.Idx → EReal) = val_main_v47 (F := Ideal) (m ((c : Thread nD τ).loc main_arg0)) (m ((c : Thread nD τ).loc main_arg1)) (m ((c : Thread nD τ).loc main_arg4)) (m ((c : Thread nD τ).loc main_arg5)) := by
  dsimp only [V7, W7, hostOps2]
  after_results_simp
  rw [h_W6]
  exact bf16_cast_id _ _

/-- The second weight matrix cast to bf16 is the matrix. -/
theorem w2_W7 : (V7 m ρ c main_v49 : S128x64.Idx → EReal) = (m ((c : Thread nD τ).loc main_arg6) : S128x64.Idx → EReal) := by
  dsimp only [V7, W7, hostOps2]
  after_results_simp
  rw [arg6_W6]
  rfl

/-- The third region's result is the reference's product of the hidden features and the second weight matrix. -/
theorem h1_W8 : W8 m ρ c (Proc.devRef .tc main_v50) = val_main_v78 (F := Ideal) (m ((c : Thread nD τ).loc main_arg0)) (m ((c : Thread nD τ).loc main_arg1)) (m ((c : Thread nD τ).loc main_arg4)) (m ((c : Thread nD τ).loc main_arg5)) (m ((c : Thread nD τ).loc main_arg6)) := by
  refine (W8_arr m ρ c 2).trans ?_
  refine (Region2.final (V7 m ρ) c).trans ?_
  unfold Region2.G
  rw [h_W7, w2_W7]
  unfold val_main_v78
  exact (dotGeneral_eq Cert.ReferenceIdeal.dot_S50000x128_S128x64_S50000x64_1_0_0_1_n_n rfl rfl rfl rfl rfl rfl none .single _ _).symm

/-- The node embeddings after the fourth region are the reference's: the propagated features plus the bias. -/
theorem z_W10 : W10 m ρ c (Proc.devRef .tc main_v65) = val_main_v94 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) := by
  refine (W10_arr m ρ c 2).trans ?_
  refine (Region3.final (V9 m ρ) c).trans ?_
  have e1 : (V9 m ρ c main_v63 : S50000x64.Idx → EReal) = val_main_v91 (F := Ideal) (m ((c : Thread nD τ).loc main_arg0)) (m ((c : Thread nD τ).loc main_arg1)) (m ((c : Thread nD τ).loc main_arg4)) (m ((c : Thread nD τ).loc main_arg5)) (m ((c : Thread nD τ).loc main_arg6)) := pre2_W9 m ρ c (h1_W8 m ρ c)
  have e2 : (V9 m ρ c main_v64 : S1x64.Idx → EReal) = shapeCast S1x64 (m ((c : Thread nD τ).loc main_arg7)) shapeCasts_S64_S1x64 := bias2_W9 m ρ c
  funext i
  dsimp only [Region3.G, Region3.rd]
  rw [e1, e2, val_main_v94_apply, val_main_v93_apply, val_main_v92_apply]
  rw [shapeCast_apply _ shapeCasts_S64_S1x64 (ix2 (0 : Fin 1) (i 1)) (idx_main_v92 (idx_main_v93 i)) (by
    rw [Shape.rowMajor_val_one, Shape.rowMajor_val_two]
    show (i 1).val = 0 * 64 + (i 1).val
    omega)]
  rfl

end ExtendedReals

end Cert.Bridge

end
-- ==== Proof.Bridge3.lean ====
/-
  The decoding.  The host gathers the node embeddings' rows at the two end nodes of each of the 400000 candidate edges (the
  positive and the negative ones, concatenated), pads both [400000, 64] arrays with 1408 zero rows, and the fifth region sums,
  row by row, the products of the two padded arrays' entries; the result's first 400000 rows are kept.  A kept row never
  reads a padding row, so entry r of the result is the sum over k of zs(r, k) · zd(r, k) — the reference's sum over the last
  axis of the product of its two gathers, which starts from zero.
-/
import proofs.«123876_j3075196584115_1_alg».proof.Proof.Gen.KernelIdeal.Frame
import proofs.«123876_j3075196584115_1_alg».proof.Proof.RefRead
import proofs.«123876_j3075196584115_1_alg».proof.Proof.Region4
import proofs.«123876_j3075196584115_1_alg».proof.Proof.Bridge2
import Idealize.ShloMosaic.Lib.StableHlo.Run
import Idealize.ShloMosaic.Lib.Pipeline.Value
import Idealize.ShloMosaic.Lib.ValueIdx
import Idealize.ShloMosaic.Lib.KernelVsHost

noncomputable section

open Idealize.ShloMosaic Idealize.ShloMosaic.TcCoe Idealize.SL.Sem Idealize.ShloMosaic.StableHlo
open Idealize.ShloMosaic.ValueIdx

namespace Cert.Bridge

open Cert.KernelIdeal Cert.KernelIdeal.Gen Cert.LibMatmul
open Cert.ReferenceIdeal.ReadP

/-- After the one-pass rewriting of a stretch's results, what is left of it (an operand inside a list of pieces): each
    operation's result at its own buffer is its function's value, at any other buffer what was there. -/
macro "finish_results" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

section AnyValues
/- The host operations mean the same at any float values: these facts do not read a float. -/
variable {F : FTy → Type} [FloatOps F]
variable (m : (ℓ : Loc nD τ sig) → Buf (Elt F) ℓ) (ρ : Dev nD → PrngReg) (c : Dev nD)

/-- The two candidate-edge lists are, after the fourth region, what was launched: nothing writes an argument array. -/
theorem arg2_W10 : W10 m ρ c (Proc.devRef .tc main_arg2) = m ((c : Thread nD τ).loc main_arg2) := by
  refine (W10_of_ne m ρ c main_arg2 (by decide)).trans ?_
  dsimp only [W9, hostOps3]
  after_results_simp
  refine (carried_W8 m ρ c main_arg2 (by decide) (by decide) (by dsimp only [W7, hostOps2]; after_results_simp) (by dsimp only [W5, hostOps1]; after_results_simp)).trans ?_
  refine (W4_of_ne m ρ c main_arg2 (by decide)).trans ?_
  dsimp only [W3, W2, W1, hostOps0_2, hostOps0_1, hostOps0]
  after_results_simp
theorem arg3_W10 : W10 m ρ c (Proc.devRef .tc main_arg3) = m ((c : Thread nD τ).loc main_arg3) := by
  refine (W10_of_ne m ρ c main_arg3 (by decide)).trans ?_
  dsimp only [W9, hostOps3]
  after_results_simp
  refine (carried_W8 m ρ c main_arg3 (by decide) (by decide) (by dsimp only [W7, hostOps2]; after_results_simp) (by dsimp only [W5, hostOps1]; after_results_simp)).trans ?_
  refine (W4_of_ne m ρ c main_arg3 (by decide)).trans ?_
  dsimp only [W3, W2, W1, hostOps0_2, hostOps0_1, hostOps0]
  after_results_simp

/-- The embeddings gathered at the candidate edges' first end nodes, padded with zero rows: the reference's gather, padded;
    given that the embeddings are the reference's. -/
theorem zs_W14 (hZ : W10 m ρ c (Proc.devRef .tc main_v65) = val_main_v94 (F := F) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7))) :
    W14 m ρ c (Proc.devRef .tc main_v85) = pad S401408x64 ![0, 0] ![1408, 0] ![0, 0] (val_main_v104 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (sitofp .f32 (constantI S_ 32 0#32)) pads_S400000x64_S401408x64_014080_000 h_S_ := by
  dsimp only [W14, W13, W12, W11, hostOps4_3, hostOps4_2, hostOps4_1, hostOps4]
  after_results_simp
  finish_results
  rw [hZ, arg2_W10, arg3_W10]
  rfl

/-- The same at the second end nodes. -/
theorem zd_W14 (hZ : W10 m ρ c (Proc.devRef .tc main_v65) = val_main_v94 (F := F) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7))) :
    W14 m ρ c (Proc.devRef .tc main_v86) = pad S401408x64 ![0, 0] ![1408, 0] ![0, 0] (val_main_v113 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (sitofp .f32 (constantI S_ 32 0#32)) pads_S400000x64_S401408x64_014080_000 h_S_ := by
  dsimp only [W14, W13, W12, W11, hostOps4_3, hostOps4_2, hostOps4_1, hostOps4]
  after_results_simp
  finish_results
  rw [hZ, arg2_W10, arg3_W10]
  rfl

/-- The program's result is the first 400000 entries of the fifth region's result column. -/
theorem out_W16_shape : W16 m ρ c (Proc.devRef .tc main_v89)
    = extractStridedSlice S400000 ![0] (shapeCast S401408 (W15 m ρ c (Proc.devRef .tc main_v87)) shapeCasts_S401408x1_S401408) slices_S401408_S400000_0 := by
  dsimp only [W16, hostOps5]
  after_results_simp
  rfl

end AnyValues

section ExtendedReals
variable (m : (ℓ : Loc nD τ sig) → Buf (Elt Ideal) ℓ) (ρ : Dev nD → PrngReg) (c : Dev nD)

/-- The program's result is the reference's: entry r is the sum over k of the products of the two gathered rows. -/
theorem out_W16 : W16 m ρ c (Proc.devRef .tc main_v89) = val_main_v115 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have eZ := z_W10 m ρ c
  have e1 : (V14 m ρ c main_v85 : S401408x64.Idx → EReal) = pad S401408x64 ![0, 0] ![1408, 0] ![0, 0] (val_main_v104 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (sitofp (F := Ideal) .f32 (constantI S_ 32 0#32)) pads_S400000x64_S401408x64_014080_000 h_S_ := zs_W14 m ρ c eZ
  have e2 : (V14 m ρ c main_v86 : S401408x64.Idx → EReal) = pad S401408x64 ![0, 0] ![1408, 0] ![0, 0] (val_main_v113 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (sitofp (F := Ideal) .f32 (constantI S_ 32 0#32)) pads_S400000x64_S401408x64_014080_000 h_S_ := zd_W14 m ρ c eZ
  rw [out_W16_shape, show W15 m ρ c (Proc.devRef .tc main_v87) = Region4.G (V14 m ρ) c from (W15_arr m ρ c 2).trans (Region4.final (V14 m ρ) c)]
  funext i
  have hi : (i 0).val < 400000 := (i 0).isLt
  rw [extractStridedSlice_apply ![0] _ slices_S401408_S400000_0 i (ix1 (⟨(i 0).val, by omega⟩ : Fin 401408)) (fun a => by
    match a with
    | ⟨0, _⟩ => show (i 0).val = 0 + (i 0).val; omega)]
  rw [shapeCast_apply _ shapeCasts_S401408x1_S401408 (ix1 (⟨(i 0).val, by omega⟩ : Fin 401408)) (ix2 (⟨(i 0).val, by omega⟩ : Fin 401408) (0 : Fin 1)) (by
    rw [Shape.rowMajor_val_one, Shape.rowMajor_val_two]
    show (i 0).val * 1 + 0 = (i 0).val
    omega)]
  dsimp only [Region4.G, Region4.rd]
  rw [e1, e2, val_main_v115_apply, val_main_cst_24_apply, Ideal.ofBits_def, Ideal.ofBits_zero_f32, zero_add]
  show @Eq EReal _ _
  refine Finset.sum_congr rfl fun k _ => ?_
  rw [val_main_v114_apply, Ideal.mulf_def]
  refine congr (congrArg HMul.hMul ?_) ?_
  · exact pad_apply_of_inside ![0, 0] ![1408, 0] ![0, 0] _ _ pads_S400000x64_S401408x64_014080_000 h_S_ (ix2 ((ix2 (⟨(i 0).val, by omega⟩ : Fin 401408) (0 : Fin 1)) 0) k) (idx_main_v115 i k) (fun a => by
      match a with
      | ⟨0, _⟩ => show (i 0).val = 0 + (i 0).val * (0 + 1); omega
      | ⟨1, _⟩ => show k.val = 0 + k.val * (0 + 1); omega)
  · exact pad_apply_of_inside ![0, 0] ![1408, 0] ![0, 0] _ _ pads_S400000x64_S401408x64_014080_000 h_S_ (ix2 ((ix2 (⟨(i 0).val, by omega⟩ : Fin 401408) (0 : Fin 1)) 0) k) (idx_main_v115 i k) (fun a => by
      match a with
      | ⟨0, _⟩ => show (i 0).val = 0 + (i 0).val * (0 + 1); omega
      | ⟨1, _⟩ => show k.val = 0 + k.val * (0 + 1); omega)

end ExtendedReals

end Cert.Bridge

end
-- ==== Proof.lean ====
/-
  The certificate of a two-layer graph convolution with a dot-product link decoder, kernel against reference, on the
  extended reals.

  Both programs compute, from the node features x, the edge list, two lists of candidate edges and two weight/bias pairs:
    norm(e) = dinv(src e) · dinv(dst e) over the edges and the self loops, dinv = deg^(-1/2) where deg > 0 and 0 elsewhere;
    h = max(P(x·W1) + b1, 0),  z = P(h·W2) + b2,  where P(y)(i) = Σ over e with dst e = i of norm(e) · y(src e);
    out(r) = Σ_k z(a_r, k) · z(b_r, k) for the r-th candidate edge (a_r, b_r).
  The kernel does the two matrix products, the two bias steps and the row sums in five kernel regions (the products on bf16
  casts of their operands, the row sums on arrays padded with zero rows, keeping the first 400000), and the gathers and
  scatter-adds on the host; the reference does everything on the host.  On the extended reals a change of float format is the
  identity, a matrix product into a zero accumulator and the host's product are the same sum over k, a lane sum starting from
  zero and the host's sum are the same sum, and a kept row never reads a padding row; the host operations are the same on both
  sides.  So the two results are equal index by index, and no law that needs finiteness is used: the precondition is not
  opened.

  The three frame conjuncts: the two kernel programs' are their generated frame certificates; the reference's is its run with
  the result dropped.  The idealization rewrote nothing, so there is nothing to preserve.
-/
import proofs.«123876_j3075196584115_1_alg».proof.Defs
import proofs.«123876_j3075196584115_1_alg».proof.Proof.Gen.Kernel
import proofs.«123876_j3075196584115_1_alg».proof.Proof.Gen.Kernel.Skeleton
import proofs.«123876_j3075196584115_1_alg».proof.Proof.Gen.Kernel.Launch
import proofs.«123876_j3075196584115_1_alg».proof.Proof.Gen.Kernel.Points
import proofs.«123876_j3075196584115_1_alg».proof.Proof.Gen.Kernel.Frame
import proofs.«123876_j3075196584115_1_alg».proof.Proof.Gen.KernelIdeal
import proofs.«123876_j3075196584115_1_alg».proof.Proof.Gen.KernelIdeal.Skeleton
import proofs.«123876_j3075196584115_1_alg».proof.Proof.Gen.KernelIdeal.Launch
import proofs.«123876_j3075196584115_1_alg».proof.Proof.Gen.KernelIdeal.Points
import proofs.«123876_j3075196584115_1_alg».proof.Proof.Gen.KernelIdeal.Frame
import proofs.«123876_j3075196584115_1_alg».proof.Proof.Gen.ReferenceIdeal
import proofs.«123876_j3075196584115_1_alg».proof.Proof.Gen.Pre_finite_inputs
import proofs.«123876_j3075196584115_1_alg».proof.Proof.RefRun
import proofs.«123876_j3075196584115_1_alg».proof.Proof.RefRead
import proofs.«123876_j3075196584115_1_alg».proof.Proof.KernelRun
import proofs.«123876_j3075196584115_1_alg».proof.Proof.Bridge3
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The idealized kernel ends with its result buffer at the last boundary's contents, the reference with its result at its
    operations' composed term; from arguments that agree these are the same array (the bridge). -/
theorem algebraic : Cert.algebraic_KernelIdeal_ReferenceIdeal := by
  intro m ρ m' ρ' _ hagree
  refine ⟨fun c => Cert.KernelIdeal.Gen.W16 m ρ c (Proc.devRef .tc Cert.KernelIdeal.main_v89), Cert.KernelIdeal.Run.run (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7⟩ := hagree c
  rw [Cert.ReferenceIdeal.ReadP.val_main_v115_eq, a0, a1, a2, a3, a4, a5, a6, a7]
  exact (Cert.Bridge.out_W16 m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
